-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x500 .f32) (main_arg1 : IVec S2x1600000 32) (main_arg2 : FVec F S500x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S2000x500 : Shape := ⟨2, ![2000, 500]⟩
abbrev S2000x128 : Shape := ⟨2, ![2000, 128]⟩
abbrev S1600000x128 : Shape := ⟨2, ![1600000, 128]⟩
abbrev S100000x1 : Shape := ⟨2, ![100000, 1]⟩
abbrev S1x128 : Shape := ⟨2, ![1, 128]⟩
abbrev S2000x1 : Shape := ⟨2, ![2000, 1]⟩
abbrev S100000x40 : Shape := ⟨2, ![100000, 40]⟩
abbrev S2000x40 : Shape := ⟨2, ![2000, 40]⟩
abbrev S1600000x40 : Shape := ⟨2, ![1600000, 40]⟩
abbrev S1x40 : Shape := ⟨2, ![1, 40]⟩
abbrev S2000 : Shape := ⟨1, ![2000]⟩

abbrev nBuf : Space → Nat
  | .hbm => 131
  | .vmem => 56
  | .smem => 0
  | _ => 0

abbrev hbmTy0_0 (i : Nat) : BufTy := match i % 128 with
  | 0 => ⟨S100000x500, .f32⟩
  | 1 => ⟨S2x1600000, .i32⟩
  | 2 => ⟨S500x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x40, .f32⟩
  | 9 => ⟨S40, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S100000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S_, .f32⟩
  | 25 => ⟨S1600000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S100000, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000x1, .f32⟩
  | 69 => ⟨S1x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S1600000x1, .f32⟩
  | 82 => ⟨S1600000x128, .f32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S100000x1, .f32⟩
  | 89 => ⟨S1x128, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S1600000x1, .f32⟩
  | 102 => ⟨S1600000x128, .f32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000x1, .f32⟩
  | 109 => ⟨S1x128, .f32⟩
  | 110 => ⟨S100000x128, .f32⟩
  | 111 => ⟨S100000x40, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x40, .f32⟩
  | 121 => ⟨S1600000x1, .f32⟩
  | 122 => ⟨S1600000x40, .f32⟩
  | 123 => ⟨S1600000x40, .f32⟩
  | 124 => ⟨S_, .f32⟩
  | 125 => ⟨S100000x40, .f32⟩
  | 126 => ⟨S1600000x1, .i32⟩
  | 127 => ⟨S100000x40, .f32⟩
  | _ => ⟨S100000x500, .f32⟩

abbrev hbmTy0_1 (i : Nat) : BufTy := match i % 128 with
  | 0 => ⟨S100000x1, .f32⟩
  | 1 => ⟨S1x40, .f32⟩
  | 2 => ⟨S100000x40, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | .local _ .vmem, ⟨0, _⟩ => ⟨S2000x500, .f32⟩
  | .local _ .vmem, ⟨1, _⟩ => ⟨S2000x500, .f32⟩
  | .local _ .vmem, ⟨2, _⟩ => ⟨S500x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x40, .f32⟩
  | .local _ .vmem, ⟨45, _⟩ => ⟨S2000x40, .f32⟩
  | .local _ .vmem, ⟨46, _⟩ => ⟨S2000x40, .f32⟩
  | .local _ .vmem, ⟨47, _⟩ => ⟨S2000x40, .f32⟩
  | .local _ .vmem, ⟨48, _⟩ => ⟨S2000x40, .f32⟩
  | .local _ .vmem, ⟨49, _⟩ => ⟨S2000x40, .f32⟩
  | .local _ .vmem, ⟨50, _⟩ => ⟨S2000x40, .f32⟩
  | .local _ .vmem, ⟨51, _⟩ => ⟨S2000x1, .f32⟩
  | .local _ .vmem, ⟨52, _⟩ => ⟨S2000x1, .f32⟩
  | .local _ .vmem, ⟨53, _⟩ => ⟨S1x40, .f32⟩
  | .local _ .vmem, ⟨54, _⟩ => ⟨S2000x40, .f32⟩
  | .local _ .vmem, ⟨55, _⟩ => ⟨S2000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_16 : Ref sig .tc := ⟨.hbm, 112, rfl⟩
abbrev main_v84 : Ref sig .tc := ⟨.hbm, 113, rfl⟩
abbrev main_v85 : Ref sig .tc := ⟨.hbm, 114, rfl⟩
abbrev main_c_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x40 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x40 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x40 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x500_S500x128_S2000x128_1_0_0_1_n_n_wf : DotDims.WF S2000x500 S500x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S100000x128.size a
  hwx5_4 : ∀ i : grid5.Coords, EltTy.bits .f32 = 32 ∨ (Rect.block (s := S100000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x40.size a ≤ S100000x40.size a
  hwx6_2 : ∀ i : grid6.Coords, EltTy.bits .f32 = 32 ∨ (Rect.block (s := S100000x40) S2000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S100000x40.size a
  hwx7_0 : ∀ i : grid7.Coords, EltTy.bits .f32 = 32 ∨ (Rect.block (s := S100000x40) S2000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x40.size a ≤ S100000x40.size a
  hwx7_1 : ∀ i : grid7.Coords, EltTy.bits .f32 = 32 ∨ (Rect.block (s := S100000x40) S2000x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x40.size a ≤ S1x40.size a
  hwx7_3 : ∀ i : grid7.Coords, EltTy.bits .f32 = 32 ∨ (Rect.block (s := S1x40) S1x40.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x40.size a ≤ S100000x40.size a
  hwx7_4 : ∀ i : grid7.Coords, EltTy.bits .f32 = 32 ∨ (Rect.block (s := S100000x40) S2000x40.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x500_S500x128_S2000x128_1_0_0_1_n_n : DotDims S2000x500 S500x128 S2000x128 where
  lhsContracting := [1]
  rhsContracting := [0]
  lhsNonContracting := [0]
  rhsNonContracting := [1]
  lhsBatch := []
  rhsBatch := []
  wf := dot_S2000x500_S500x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v82) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83) S2000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v96) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v83) S2000x40.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v97) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v98) S1x40.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v99) S2000x40.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 164
  | .vmem => 0
  | .smem => 0
  | _ => 0

abbrev hbmTy0_0 (i : Nat) : BufTy := match i % 128 with
  | 0 => ⟨S100000x500, .f32⟩
  | 1 => ⟨S2x1600000, .i32⟩
  | 2 => ⟨S500x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x40, .f32⟩
  | 9 => ⟨S40, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S100000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S_, .f32⟩
  | 25 => ⟨S1600000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S100000, .f32⟩
  | 52 => ⟨S100000x1, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x500, .f32⟩

abbrev hbmTy0_1 (i : Nat) : BufTy := match i % 128 with
  | 0 => ⟨S100000x40, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x40, .f32⟩
  | 10 => ⟨S1600000x40, .f32⟩
  | 11 => ⟨S1600000x40, .f32⟩
  | 12 => ⟨S_, .f32⟩
  | 13 => ⟨S100000x40, .f32⟩
  | 14 => ⟨S1600000x1, .i32⟩
  | 15 => ⟨S100000x40, .f32⟩
  | 16 => ⟨S100000x40, .f32⟩
  | 17 => ⟨S100000x40, .f32⟩
  | 18 => ⟨S100000x40, .f32⟩
  | 19 => ⟨S1x40, .f32⟩
  | 20 => ⟨S100000x40, .f32⟩
  | 21 => ⟨S100000x40, .f32⟩
  | 22 => ⟨S_, .f32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x40, .f32⟩
  | 29 => ⟨S100000x40, .f32⟩
  | 30 => ⟨S100000x40, .f32⟩
  | 31 => ⟨S_, .f32⟩
  | 32 => ⟨S100000, .f32⟩
  | 33 => ⟨S100000x1, .f32⟩
  | 34 => ⟨S100000x40, .f32⟩
  | 35 => ⟨S100000x40, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call1_cst : Ref sig .tc := ⟨.hbm, 100, rfl⟩
abbrev main_call1_v0 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_c_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call2_cst : Ref sig .tc := ⟨.hbm, 125, rfl⟩
abbrev main_call2_v0 : Ref sig .tc := ⟨.hbm, 126, rfl⟩
abbrev main_v93 : Ref sig .tc := ⟨.hbm, 127, rfl⟩
abbrev main_v94 : Ref sig .tc := ⟨.hbm, 128, rfl⟩
abbrev main_c_16 : Ref sig .tc := ⟨.hbm, 129, rfl⟩
abbrev main_v95 : Ref sig .tc := ⟨.hbm, 130, rfl⟩
abbrev main_v96 : Ref sig .tc := ⟨.hbm, 131, rfl⟩
abbrev main_c_17 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_19 : Ref sig .tc := ⟨.hbm, 150, rfl⟩
abbrev main_v113 : Ref sig .tc := ⟨.hbm, 151, rfl⟩
abbrev main_cst_20 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_21 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x500_S500x128_S100000x128_1_0_0_1_n_n_wf : DotDims.WF S100000x500 S500x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run, read at its end. @main is thirteen segments — five stretches of host
  operations and eight pipelined regions — and the buffer contents at each boundary are a fold from
  the launch memory. The run ends, on every core, with every buffer that outlives the regions at the
  LAST boundary's contents; any property of the final memory that those contents decide therefore
  holds of every terminating, fault-free, weakly fair execution (`run_at_exit`). In particular the
  result array is what the last region left (`run_result`), and the arguments are as launched.
-/
import proofs.«107449_j45028437131723_1_alg».proof.Proof.Gen.KernelIdeal.Frame

set_option maxRecDepth 16384

noncomputable section

namespace Cert.KernelIdeal.Spine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault in a memory that holds, at every
    buffer outliving the regions, the last boundary's contents — so any `Q` those contents decide holds. -/
theorem run_at_exit {Q : PUnit × MemSt nD τ sig (Elt F) → Prop}
    (hQ : ∀ s : MemSt nD τ sig (Elt F),
      (∀ c : Dev nD, ∀ b ∈ Pipeline.ucRefs τ sig, s.mem (((c : Thread nD τ)).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

/-- The result array ends at what the last region's write-backs leave; the arguments end as launched. -/
theorem run_result : θ_run defs (onTc (τ := τ) (main (F := F))) ⟨m, fun _ => 0, ρ⟩ (fun r => ∀ c : Dev nD,
      r.2.mem ((c.tc : Thread nD τ).loc main_v99) = W13 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_at_exit m ρ fun s h c =>
    ⟨h c _ (mem_uc main_v99 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c)⟩

end Cert.KernelIdeal.Spine

end
-- ==== Proof.GraphOps.lean ====
/-
  The graph part of the network, as functions of the edge list: the words naming each edge's source
  and destination node, the index columns built from them (a negative word wrapped once by the node
  count, as jnp indexing does), the inverse square root of each node's degree (in-degree plus one for
  the self-loop), the per-edge and per-node normalisation weights, and the aggregation of transformed
  features over the edges — gather the source rows, scale each by its edge's weight, and add them up
  at the destinations. Written once here from the host operations the kernel's @main applies; the
  network's layers only ever use them as these whole-array functions.
-/
import proofs.«107449_j45028437131723_1_alg».proof.KernelIdeal
import proofs.«107449_j45028437131723_1_alg».proof.Proof.Gen.KernelIdeal

noncomputable section

namespace Cert.KernelIdeal.Graph

open Idealize.ShloMosaic Idealize.SL.Sem
open Cert.KernelIdeal Cert.KernelIdeal.Gen

variable {F : FTy → Type} [FloatOps F]

/-- Row `0` of the edge list: each edge's source word. -/
def srcWords (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row `1` of the edge list: each edge's destination word. -/
def dstWords (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- An index column from node words: a negative word gets the node count added once, then the vector is set as a column. -/
def wrapCol (w : (⟨S1600000, .i32⟩ : BufTy).Contents (Elt F)) : (⟨S1600000x1, .i32⟩ : BufTy).Contents (Elt F) :=
  broadcastInDim S1600000x1 ![0] bcast_S1600000_S1600000x1_0
    (select (cmpi .slt w (broadcastInDim S1600000 ![] bcast_S_S1600000 (constantI S_ 32 0#32)))
      (addi w (broadcastInDim S1600000 ![] bcast_S_S1600000 (constantI S_ 32 100000#32))) w)

/-- `1 / sqrt (in-degree + 1)` per node: ones scattered onto zeros at the destinations, plus one, inverse square root. -/
def invSqrtDeg (dst : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (wrapCol dst)
      (broadcastInDim S1600000 ![] bcast_S_S1600000 (constant S_ .f32 0x3F800000#32)))
    (broadcastInDim S100000 ![] bcast_S_S100000 (constant S_ .f32 0x3F800000#32)))

/-- The weight of each edge: the product of its two endpoints' inverse square-root degrees. -/
def edgeNorm (src dst : (⟨S1600000, .i32⟩ : BufTy).Contents (Elt F)) : (⟨S1600000, .f32⟩ : BufTy).Contents (Elt F) :=
  mulf (Host.gather gather_S100000_S1600000x1_S1600000_n_0_n_n_0_1_1 (invSqrtDeg dst) (wrapCol src))
    (Host.gather gather_S100000_S1600000x1_S1600000_n_0_n_n_0_1_1 (invSqrtDeg dst) (wrapCol dst))

/-- The weight of each node's self-loop: the square of its inverse square-root degree. -/
def selfNorm (dst : (⟨S1600000, .i32⟩ : BufTy).Contents (Elt F)) : (⟨S100000, .f32⟩ : BufTy).Contents (Elt F) :=
  mulf (invSqrtDeg dst) (invSqrtDeg dst)

/-- A per-node vector set as a column `[N, 1]`. -/
def nodeCol (v : (⟨S100000, .f32⟩ : BufTy).Contents (Elt F)) : (⟨S100000x1, .f32⟩ : BufTy).Contents (Elt F) :=
  broadcastInDim S100000x1 ![0] bcast_S100000_S100000x1_0 v

/-- A bias vector set as a row `[1, 128]`. -/
def biasRow128 (b : (⟨S128, .f32⟩ : BufTy).Contents (Elt F)) : (⟨S1x128, .f32⟩ : BufTy).Contents (Elt F) :=
  broadcastInDim S1x128 ![1] bcast_S128_S1x128_1 b

/-- A bias vector set as a row `[1, 40]`. -/
def biasRow40 (b : (⟨S40, .f32⟩ : BufTy).Contents (Elt F)) : (⟨S1x40, .f32⟩ : BufTy).Contents (Elt F) :=
  broadcastInDim S1x40 ![1] bcast_S40_S1x40_1 b

/-- Aggregation over the edges on 128 feature columns: the rows of `h` at the sources, each scaled by its edge's
    weight, added up at the destinations from zero. -/
def aggr128 (src dst : (⟨S1600000, .i32⟩ : BufTy).Contents (Elt F)) (en : (⟨S1600000, .f32⟩ : BufTy).Contents (Elt F))
    (h : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 h (wrapCol src))
      (broadcastInDim S1600000x128 ![0, 1] bcast_S1600000x1_S1600000x128_0_1
        (broadcastInDim S1600000x1 ![0] bcast_S1600000_S1600000x1_0 en)))

/-- The same on 40 feature columns. -/
def aggr40 (src dst : (⟨S1600000, .i32⟩ : BufTy).Contents (Elt F)) (en : (⟨S1600000, .f32⟩ : BufTy).Contents (Elt F))
    (h : (⟨S100000x40, .f32⟩ : BufTy).Contents (Elt F)) : (⟨S100000x40, .f32⟩ : BufTy).Contents (Elt F) :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 dst)
    (mulf (Host.gather gather_S100000x40_S1600000x1_S1600000x40_1_0_n_n_0_1_140 h (wrapCol src))
      (broadcastInDim S1600000x40 ![0, 1] bcast_S1600000x1_S1600000x40_0_1
        (broadcastInDim S1600000x1 ![0] bcast_S1600000_S1600000x1_0 en)))

end Cert.KernelIdeal.Graph

end
-- ==== Proof.HostReads.lean ====
/-
  What each stretch of host operations between the regions leaves in the buffers the regions read,
  as the graph functions of the contents the stretch started from; and that a stretch leaves alone
  what it does not write.
-/
import proofs.«107449_j45028437131723_1_alg».proof.Proof.Gen.KernelIdeal.Frame
import proofs.«107449_j45028437131723_1_alg».proof.Proof.GraphOps

set_option maxRecDepth 16384

noncomputable section

namespace Cert.KernelIdeal.Spine

open Idealize.ShloMosaic Idealize.ShloMosaic.TcCoe Idealize.SL.Sem Idealize.ShloMosaic.StableHlo
open Cert.KernelIdeal Cert.KernelIdeal.Gen Cert.KernelIdeal.Graph

variable {F : FTy → Type} [FloatOps F]
variable (m : (ℓ : Loc nD τ sig) → Buf (Elt F) ℓ) (ρ : Dev nD → PrngReg)

/-! ## Before the first region: the graph's words and weights, from the edge list -/

/-- The source words. -/
theorem W1_v1 (c : Dev nD) : W1 m ρ c (Proc.devRef .tc main_v1) = srcWords (m ((c : Thread nD τ).loc main_arg1)) := by
  show StableHlo.after hostOps0 (W0 m ρ c) (Proc.devRef .tc main_v1) = _
  after_results_simp
  try rfl

/-- The destination words. -/
theorem W1_v3 (c : Dev nD) : W1 m ρ c (Proc.devRef .tc main_v3) = dstWords (m ((c : Thread nD τ).loc main_arg1)) := by
  show StableHlo.after hostOps0 (W0 m ρ c) (Proc.devRef .tc main_v3) = _
  after_results_simp
  try rfl

/-- The edge weights. -/
theorem W1_v30 (c : Dev nD) : W1 m ρ c (Proc.devRef .tc main_v30) = edgeNorm (srcWords (m ((c : Thread nD τ).loc main_arg1))) (dstWords (m ((c : Thread nD τ).loc main_arg1))) := by
  show StableHlo.after hostOps0 (W0 m ρ c) (Proc.devRef .tc main_v30) = _
  after_results_simp
  try rfl

/-- The self-loop weights. -/
theorem W1_v31 (c : Dev nD) : W1 m ρ c (Proc.devRef .tc main_v31) = selfNorm (dstWords (m ((c : Thread nD τ).loc main_arg1))) := by
  show StableHlo.after hostOps0 (W0 m ρ c) (Proc.devRef .tc main_v31) = _
  after_results_simp
  try rfl

/-- Argument 0 is not written. -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp
  try rfl

/-- Argument 2 is not written. -/
theorem W1_arg2 (c : Dev nD) : W1 m ρ c (Proc.devRef .tc main_arg2) = m ((c : Thread nD τ).loc main_arg2) := by
  show StableHlo.after hostOps0 (W0 m ρ c) (Proc.devRef .tc main_arg2) = _
  after_results_simp
  try rfl

/-- Argument 3 is not written. -/
theorem W1_arg3 (c : Dev nD) : W1 m ρ c (Proc.devRef .tc main_arg3) = m ((c : Thread nD τ).loc main_arg3) := by
  show StableHlo.after hostOps0 (W0 m ρ c) (Proc.devRef .tc main_arg3) = _
  after_results_simp
  try rfl

/-- Argument 4 is not written. -/
theorem W1_arg4 (c : Dev nD) : W1 m ρ c (Proc.devRef .tc main_arg4) = m ((c : Thread nD τ).loc main_arg4) := by
  show StableHlo.after hostOps0 (W0 m ρ c) (Proc.devRef .tc main_arg4) = _
  after_results_simp
  try rfl

/-- Argument 5 is not written. -/
theorem W1_arg5 (c : Dev nD) : W1 m ρ c (Proc.devRef .tc main_arg5) = m ((c : Thread nD τ).loc main_arg5) := by
  show StableHlo.after hostOps0 (W0 m ρ c) (Proc.devRef .tc main_arg5) = _
  after_results_simp
  try rfl

/-- Argument 6 is not written. -/
theorem W1_arg6 (c : Dev nD) : W1 m ρ c (Proc.devRef .tc main_arg6) = m ((c : Thread nD τ).loc main_arg6) := by
  show StableHlo.after hostOps0 (W0 m ρ c) (Proc.devRef .tc main_arg6) = _
  after_results_simp
  try rfl

/-- Argument 7 is not written. -/
theorem W1_arg7 (c : Dev nD) : W1 m ρ c (Proc.devRef .tc main_arg7) = m ((c : Thread nD τ).loc main_arg7) := by
  show StableHlo.after hostOps0 (W0 m ρ c) (Proc.devRef .tc main_arg7) = _
  after_results_simp
  try rfl

/-- Argument 8 is not written. -/
theorem W1_arg8 (c : Dev nD) : W1 m ρ c (Proc.devRef .tc main_arg8) = m ((c : Thread nD τ).loc main_arg8) := by
  show StableHlo.after hostOps0 (W0 m ρ c) (Proc.devRef .tc main_arg8) = _
  after_results_simp
  try rfl

/-- Argument 9 is not written. -/
theorem W1_arg9 (c : Dev nD) : W1 m ρ c (Proc.devRef .tc main_arg9) = m ((c : Thread nD τ).loc main_arg9) := by
  show StableHlo.after hostOps0 (W0 m ρ c) (Proc.devRef .tc main_arg9) = _
  after_results_simp
  try rfl

/-! ## The stretch after the region that wrote `main_v32` -/

/-- The aggregated neighbours' rows. -/
theorem W3_v45 (c : Dev nD) : W3 m ρ c (Proc.devRef .tc main_v45) = aggr128 (W2 m ρ c (Proc.devRef .tc main_v1)) (W2 m ρ c (Proc.devRef .tc main_v3)) (W2 m ρ c (Proc.devRef .tc main_v30)) (W2 m ρ c (Proc.devRef .tc main_v32)) := by
  show StableHlo.after hostOps1 (W2 m ρ c) (Proc.devRef .tc main_v45) = _
  after_results_simp
  try rfl

/-- The self-loop weights as a column. -/
theorem W3_v46 (c : Dev nD) : W3 m ρ c (Proc.devRef .tc main_v46) = nodeCol (W2 m ρ c (Proc.devRef .tc main_v31)) := by
  show StableHlo.after hostOps1 (W2 m ρ c) (Proc.devRef .tc main_v46) = _
  after_results_simp
  try rfl

/-- The bias as a row. -/
theorem W3_v47 (c : Dev nD) : W3 m ρ c (Proc.devRef .tc main_v47) = biasRow128 (W2 m ρ c (Proc.devRef .tc main_arg3)) := by
  show StableHlo.after hostOps1 (W2 m ρ c) (Proc.devRef .tc main_v47) = _
  after_results_simp
  try rfl

/-- The transformed features are not written. -/
theorem W3_v32 (c : Dev nD) : W3 m ρ c (Proc.devRef .tc main_v32) = W2 m ρ c (Proc.devRef .tc main_v32) := by
  show StableHlo.after hostOps1 (W2 m ρ c) (Proc.devRef .tc main_v32) = _
  after_results_simp
  try rfl

/-! ## The stretch after the region that wrote `main_v49` -/

/-- The aggregated neighbours' rows. -/
theorem W6_v62 (c : Dev nD) : W6 m ρ c (Proc.devRef .tc main_v62) = aggr128 (W5 m ρ c (Proc.devRef .tc main_v1)) (W5 m ρ c (Proc.devRef .tc main_v3)) (W5 m ρ c (Proc.devRef .tc main_v30)) (W5 m ρ c (Proc.devRef .tc main_v49)) := by
  show StableHlo.after hostOps3 (W5 m ρ c) (Proc.devRef .tc main_v62) = _
  after_results_simp
  try rfl

/-- The self-loop weights as a column. -/
theorem W6_v63 (c : Dev nD) : W6 m ρ c (Proc.devRef .tc main_v63) = nodeCol (W5 m ρ c (Proc.devRef .tc main_v31)) := by
  show StableHlo.after hostOps3 (W5 m ρ c) (Proc.devRef .tc main_v63) = _
  after_results_simp
  try rfl

/-- The bias as a row. -/
theorem W6_v64 (c : Dev nD) : W6 m ρ c (Proc.devRef .tc main_v64) = biasRow128 (W5 m ρ c (Proc.devRef .tc main_arg5)) := by
  show StableHlo.after hostOps3 (W5 m ρ c) (Proc.devRef .tc main_v64) = _
  after_results_simp
  try rfl

/-- The transformed features are not written. -/
theorem W6_v49 (c : Dev nD) : W6 m ρ c (Proc.devRef .tc main_v49) = W5 m ρ c (Proc.devRef .tc main_v49) := by
  show StableHlo.after hostOps3 (W5 m ρ c) (Proc.devRef .tc main_v49) = _
  after_results_simp
  try rfl

/-! ## The stretch after the region that wrote `main_v66` -/

/-- The aggregated neighbours' rows. -/
theorem W9_v79 (c : Dev nD) : W9 m ρ c (Proc.devRef .tc main_v79) = aggr128 (W8 m ρ c (Proc.devRef .tc main_v1)) (W8 m ρ c (Proc.devRef .tc main_v3)) (W8 m ρ c (Proc.devRef .tc main_v30)) (W8 m ρ c (Proc.devRef .tc main_v66)) := by
  show StableHlo.after hostOps5 (W8 m ρ c) (Proc.devRef .tc main_v79) = _
  after_results_simp
  try rfl

/-- The self-loop weights as a column. -/
theorem W9_v80 (c : Dev nD) : W9 m ρ c (Proc.devRef .tc main_v80) = nodeCol (W8 m ρ c (Proc.devRef .tc main_v31)) := by
  show StableHlo.after hostOps5 (W8 m ρ c) (Proc.devRef .tc main_v80) = _
  after_results_simp
  try rfl

/-- The bias as a row. -/
theorem W9_v81 (c : Dev nD) : W9 m ρ c (Proc.devRef .tc main_v81) = biasRow128 (W8 m ρ c (Proc.devRef .tc main_arg7)) := by
  show StableHlo.after hostOps5 (W8 m ρ c) (Proc.devRef .tc main_v81) = _
  after_results_simp
  try rfl

/-- The transformed features are not written. -/
theorem W9_v66 (c : Dev nD) : W9 m ρ c (Proc.devRef .tc main_v66) = W8 m ρ c (Proc.devRef .tc main_v66) := by
  show StableHlo.after hostOps5 (W8 m ρ c) (Proc.devRef .tc main_v66) = _
  after_results_simp
  try rfl

/-! ## The stretch after the region that wrote `main_v83` -/

/-- The aggregated neighbours' rows. -/
theorem W12_v96 (c : Dev nD) : W12 m ρ c (Proc.devRef .tc main_v96) = aggr40 (W11 m ρ c (Proc.devRef .tc main_v1)) (W11 m ρ c (Proc.devRef .tc main_v3)) (W11 m ρ c (Proc.devRef .tc main_v30)) (W11 m ρ c (Proc.devRef .tc main_v83)) := by
  show StableHlo.after hostOps7 (W11 m ρ c) (Proc.devRef .tc main_v96) = _
  after_results_simp
  try rfl

/-- The self-loop weights as a column. -/
theorem W12_v97 (c : Dev nD) : W12 m ρ c (Proc.devRef .tc main_v97) = nodeCol (W11 m ρ c (Proc.devRef .tc main_v31)) := by
  show StableHlo.after hostOps7 (W11 m ρ c) (Proc.devRef .tc main_v97) = _
  after_results_simp
  try rfl

/-- The bias as a row. -/
theorem W12_v98 (c : Dev nD) : W12 m ρ c (Proc.devRef .tc main_v98) = biasRow40 (W11 m ρ c (Proc.devRef .tc main_arg9)) := by
  show StableHlo.after hostOps7 (W11 m ρ c) (Proc.devRef .tc main_v98) = _
  after_results_simp
  try rfl

/-- The transformed features are not written. -/
theorem W12_v83 (c : Dev nD) : W12 m ρ c (Proc.devRef .tc main_v83) = W11 m ρ c (Proc.devRef .tc main_v83) := by
  show StableHlo.after hostOps7 (W11 m ρ c) (Proc.devRef .tc main_v83) = _
  after_results_simp
  try rfl

end Cert.KernelIdeal.Spine

end
-- ==== Proof.Carry.lean ====
/-
  The buffers a later region or stretch reads but nothing in between writes — the graph's words and
  weights and the arguments — hold at every boundary what they held before the first region.
-/
import proofs.«107449_j45028437131723_1_alg».proof.Proof.HostReads

set_option maxRecDepth 16384

noncomputable section

namespace Cert.KernelIdeal.Spine

open Idealize.ShloMosaic Idealize.ShloMosaic.TcCoe Idealize.SL.Sem Idealize.ShloMosaic.StableHlo
open Cert.KernelIdeal Cert.KernelIdeal.Gen Cert.KernelIdeal.Graph

variable {F : FTy → Type} [FloatOps F]
variable (m : (ℓ : Loc nD τ sig) → Buf (Elt F) ℓ) (ρ : Dev nD → PrngReg)

/-! ## `main_v1` -/

theorem carry2_v1 (c : Dev nD) : W2 m ρ c (Proc.devRef .tc main_v1) = W1 m ρ c (Proc.devRef .tc main_v1) :=
  (W2_of_ne m ρ c main_v1 (by decide))

theorem carry3_v1 (c : Dev nD) : W3 m ρ c (Proc.devRef .tc main_v1) = W1 m ρ c (Proc.devRef .tc main_v1) :=
  (StableHlo.after_of_forall_not_mem (b := Proc.devRef .tc main_v1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_v1 m ρ c)

theorem carry4_v1 (c : Dev nD) : W4 m ρ c (Proc.devRef .tc main_v1) = W1 m ρ c (Proc.devRef .tc main_v1) :=
  (W4_of_ne m ρ c main_v1 (by decide)).trans (carry3_v1 m ρ c)

theorem carry5_v1 (c : Dev nD) : W5 m ρ c (Proc.devRef .tc main_v1) = W1 m ρ c (Proc.devRef .tc main_v1) :=
  (W5_of_ne m ρ c main_v1 (by decide)).trans (carry4_v1 m ρ c)

theorem carry6_v1 (c : Dev nD) : W6 m ρ c (Proc.devRef .tc main_v1) = W1 m ρ c (Proc.devRef .tc main_v1) :=
  (StableHlo.after_of_forall_not_mem (b := Proc.devRef .tc main_v1) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry5_v1 m ρ c)

theorem carry7_v1 (c : Dev nD) : W7 m ρ c (Proc.devRef .tc main_v1) = W1 m ρ c (Proc.devRef .tc main_v1) :=
  (W7_of_ne m ρ c main_v1 (by decide)).trans (carry6_v1 m ρ c)

theorem carry8_v1 (c : Dev nD) : W8 m ρ c (Proc.devRef .tc main_v1) = W1 m ρ c (Proc.devRef .tc main_v1) :=
  (W8_of_ne m ρ c main_v1 (by decide)).trans (carry7_v1 m ρ c)

theorem carry9_v1 (c : Dev nD) : W9 m ρ c (Proc.devRef .tc main_v1) = W1 m ρ c (Proc.devRef .tc main_v1) :=
  (StableHlo.after_of_forall_not_mem (b := Proc.devRef .tc main_v1) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry8_v1 m ρ c)

theorem carry10_v1 (c : Dev nD) : W10 m ρ c (Proc.devRef .tc main_v1) = W1 m ρ c (Proc.devRef .tc main_v1) :=
  (W10_of_ne m ρ c main_v1 (by decide)).trans (carry9_v1 m ρ c)

theorem carry11_v1 (c : Dev nD) : W11 m ρ c (Proc.devRef .tc main_v1) = W1 m ρ c (Proc.devRef .tc main_v1) :=
  (W11_of_ne m ρ c main_v1 (by decide)).trans (carry10_v1 m ρ c)

/-! ## `main_v3` -/

theorem carry2_v3 (c : Dev nD) : W2 m ρ c (Proc.devRef .tc main_v3) = W1 m ρ c (Proc.devRef .tc main_v3) :=
  (W2_of_ne m ρ c main_v3 (by decide))

theorem carry3_v3 (c : Dev nD) : W3 m ρ c (Proc.devRef .tc main_v3) = W1 m ρ c (Proc.devRef .tc main_v3) :=
  (StableHlo.after_of_forall_not_mem (b := Proc.devRef .tc main_v3) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_v3 m ρ c)

theorem carry4_v3 (c : Dev nD) : W4 m ρ c (Proc.devRef .tc main_v3) = W1 m ρ c (Proc.devRef .tc main_v3) :=
  (W4_of_ne m ρ c main_v3 (by decide)).trans (carry3_v3 m ρ c)

theorem carry5_v3 (c : Dev nD) : W5 m ρ c (Proc.devRef .tc main_v3) = W1 m ρ c (Proc.devRef .tc main_v3) :=
  (W5_of_ne m ρ c main_v3 (by decide)).trans (carry4_v3 m ρ c)

theorem carry6_v3 (c : Dev nD) : W6 m ρ c (Proc.devRef .tc main_v3) = W1 m ρ c (Proc.devRef .tc main_v3) :=
  (StableHlo.after_of_forall_not_mem (b := Proc.devRef .tc main_v3) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry5_v3 m ρ c)

theorem carry7_v3 (c : Dev nD) : W7 m ρ c (Proc.devRef .tc main_v3) = W1 m ρ c (Proc.devRef .tc main_v3) :=
  (W7_of_ne m ρ c main_v3 (by decide)).trans (carry6_v3 m ρ c)

theorem carry8_v3 (c : Dev nD) : W8 m ρ c (Proc.devRef .tc main_v3) = W1 m ρ c (Proc.devRef .tc main_v3) :=
  (W8_of_ne m ρ c main_v3 (by decide)).trans (carry7_v3 m ρ c)

theorem carry9_v3 (c : Dev nD) : W9 m ρ c (Proc.devRef .tc main_v3) = W1 m ρ c (Proc.devRef .tc main_v3) :=
  (StableHlo.after_of_forall_not_mem (b := Proc.devRef .tc main_v3) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry8_v3 m ρ c)

theorem carry10_v3 (c : Dev nD) : W10 m ρ c (Proc.devRef .tc main_v3) = W1 m ρ c (Proc.devRef .tc main_v3) :=
  (W10_of_ne m ρ c main_v3 (by decide)).trans (carry9_v3 m ρ c)

theorem carry11_v3 (c : Dev nD) : W11 m ρ c (Proc.devRef .tc main_v3) = W1 m ρ c (Proc.devRef .tc main_v3) :=
  (W11_of_ne m ρ c main_v3 (by decide)).trans (carry10_v3 m ρ c)

/-! ## `main_v30` -/

theorem carry2_v30 (c : Dev nD) : W2 m ρ c (Proc.devRef .tc main_v30) = W1 m ρ c (Proc.devRef .tc main_v30) :=
  (W2_of_ne m ρ c main_v30 (by decide))

theorem carry3_v30 (c : Dev nD) : W3 m ρ c (Proc.devRef .tc main_v30) = W1 m ρ c (Proc.devRef .tc main_v30) :=
  (StableHlo.after_of_forall_not_mem (b := Proc.devRef .tc main_v30) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_v30 m ρ c)

theorem carry4_v30 (c : Dev nD) : W4 m ρ c (Proc.devRef .tc main_v30) = W1 m ρ c (Proc.devRef .tc main_v30) :=
  (W4_of_ne m ρ c main_v30 (by decide)).trans (carry3_v30 m ρ c)

theorem carry5_v30 (c : Dev nD) : W5 m ρ c (Proc.devRef .tc main_v30) = W1 m ρ c (Proc.devRef .tc main_v30) :=
  (W5_of_ne m ρ c main_v30 (by decide)).trans (carry4_v30 m ρ c)

theorem carry6_v30 (c : Dev nD) : W6 m ρ c (Proc.devRef .tc main_v30) = W1 m ρ c (Proc.devRef .tc main_v30) :=
  (StableHlo.after_of_forall_not_mem (b := Proc.devRef .tc main_v30) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry5_v30 m ρ c)

theorem carry7_v30 (c : Dev nD) : W7 m ρ c (Proc.devRef .tc main_v30) = W1 m ρ c (Proc.devRef .tc main_v30) :=
  (W7_of_ne m ρ c main_v30 (by decide)).trans (carry6_v30 m ρ c)

theorem carry8_v30 (c : Dev nD) : W8 m ρ c (Proc.devRef .tc main_v30) = W1 m ρ c (Proc.devRef .tc main_v30) :=
  (W8_of_ne m ρ c main_v30 (by decide)).trans (carry7_v30 m ρ c)

theorem carry9_v30 (c : Dev nD) : W9 m ρ c (Proc.devRef .tc main_v30) = W1 m ρ c (Proc.devRef .tc main_v30) :=
  (StableHlo.after_of_forall_not_mem (b := Proc.devRef .tc main_v30) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry8_v30 m ρ c)

theorem carry10_v30 (c : Dev nD) : W10 m ρ c (Proc.devRef .tc main_v30) = W1 m ρ c (Proc.devRef .tc main_v30) :=
  (W10_of_ne m ρ c main_v30 (by decide)).trans (carry9_v30 m ρ c)

theorem carry11_v30 (c : Dev nD) : W11 m ρ c (Proc.devRef .tc main_v30) = W1 m ρ c (Proc.devRef .tc main_v30) :=
  (W11_of_ne m ρ c main_v30 (by decide)).trans (carry10_v30 m ρ c)

/-! ## `main_v31` -/

theorem carry2_v31 (c : Dev nD) : W2 m ρ c (Proc.devRef .tc main_v31) = W1 m ρ c (Proc.devRef .tc main_v31) :=
  (W2_of_ne m ρ c main_v31 (by decide))

theorem carry3_v31 (c : Dev nD) : W3 m ρ c (Proc.devRef .tc main_v31) = W1 m ρ c (Proc.devRef .tc main_v31) :=
  (StableHlo.after_of_forall_not_mem (b := Proc.devRef .tc main_v31) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_v31 m ρ c)

theorem carry4_v31 (c : Dev nD) : W4 m ρ c (Proc.devRef .tc main_v31) = W1 m ρ c (Proc.devRef .tc main_v31) :=
  (W4_of_ne m ρ c main_v31 (by decide)).trans (carry3_v31 m ρ c)

theorem carry5_v31 (c : Dev nD) : W5 m ρ c (Proc.devRef .tc main_v31) = W1 m ρ c (Proc.devRef .tc main_v31) :=
  (W5_of_ne m ρ c main_v31 (by decide)).trans (carry4_v31 m ρ c)

theorem carry6_v31 (c : Dev nD) : W6 m ρ c (Proc.devRef .tc main_v31) = W1 m ρ c (Proc.devRef .tc main_v31) :=
  (StableHlo.after_of_forall_not_mem (b := Proc.devRef .tc main_v31) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry5_v31 m ρ c)

theorem carry7_v31 (c : Dev nD) : W7 m ρ c (Proc.devRef .tc main_v31) = W1 m ρ c (Proc.devRef .tc main_v31) :=
  (W7_of_ne m ρ c main_v31 (by decide)).trans (carry6_v31 m ρ c)

theorem carry8_v31 (c : Dev nD) : W8 m ρ c (Proc.devRef .tc main_v31) = W1 m ρ c (Proc.devRef .tc main_v31) :=
  (W8_of_ne m ρ c main_v31 (by decide)).trans (carry7_v31 m ρ c)

theorem carry9_v31 (c : Dev nD) : W9 m ρ c (Proc.devRef .tc main_v31) = W1 m ρ c (Proc.devRef .tc main_v31) :=
  (StableHlo.after_of_forall_not_mem (b := Proc.devRef .tc main_v31) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry8_v31 m ρ c)

theorem carry10_v31 (c : Dev nD) : W10 m ρ c (Proc.devRef .tc main_v31) = W1 m ρ c (Proc.devRef .tc main_v31) :=
  (W10_of_ne m ρ c main_v31 (by decide)).trans (carry9_v31 m ρ c)

theorem carry11_v31 (c : Dev nD) : W11 m ρ c (Proc.devRef .tc main_v31) = W1 m ρ c (Proc.devRef .tc main_v31) :=
  (W11_of_ne m ρ c main_v31 (by decide)).trans (carry10_v31 m ρ c)

/-! ## `main_arg3` -/

theorem carry2_arg3 (c : Dev nD) : W2 m ρ c (Proc.devRef .tc main_arg3) = W1 m ρ c (Proc.devRef .tc main_arg3) :=
  (W2_of_ne m ρ c main_arg3 (by decide))

/-! ## `main_arg4` -/

theorem carry2_arg4 (c : Dev nD) : W2 m ρ c (Proc.devRef .tc main_arg4) = W1 m ρ c (Proc.devRef .tc main_arg4) :=
  (W2_of_ne m ρ c main_arg4 (by decide))

theorem carry3_arg4 (c : Dev nD) : W3 m ρ c (Proc.devRef .tc main_arg4) = W1 m ρ c (Proc.devRef .tc main_arg4) :=
  (StableHlo.after_of_forall_not_mem (b := Proc.devRef .tc main_arg4) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_arg4 m ρ c)

theorem carry4_arg4 (c : Dev nD) : W4 m ρ c (Proc.devRef .tc main_arg4) = W1 m ρ c (Proc.devRef .tc main_arg4) :=
  (W4_of_ne m ρ c main_arg4 (by decide)).trans (carry3_arg4 m ρ c)

/-! ## `main_arg5` -/

theorem carry2_arg5 (c : Dev nD) : W2 m ρ c (Proc.devRef .tc main_arg5) = W1 m ρ c (Proc.devRef .tc main_arg5) :=
  (W2_of_ne m ρ c main_arg5 (by decide))

theorem carry3_arg5 (c : Dev nD) : W3 m ρ c (Proc.devRef .tc main_arg5) = W1 m ρ c (Proc.devRef .tc main_arg5) :=
  (StableHlo.after_of_forall_not_mem (b := Proc.devRef .tc main_arg5) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_arg5 m ρ c)

theorem carry4_arg5 (c : Dev nD) : W4 m ρ c (Proc.devRef .tc main_arg5) = W1 m ρ c (Proc.devRef .tc main_arg5) :=
  (W4_of_ne m ρ c main_arg5 (by decide)).trans (carry3_arg5 m ρ c)

theorem carry5_arg5 (c : Dev nD) : W5 m ρ c (Proc.devRef .tc main_arg5) = W1 m ρ c (Proc.devRef .tc main_arg5) :=
  (W5_of_ne m ρ c main_arg5 (by decide)).trans (carry4_arg5 m ρ c)

/-! ## `main_arg6` -/

theorem carry2_arg6 (c : Dev nD) : W2 m ρ c (Proc.devRef .tc main_arg6) = W1 m ρ c (Proc.devRef .tc main_arg6) :=
  (W2_of_ne m ρ c main_arg6 (by decide))

theorem carry3_arg6 (c : Dev nD) : W3 m ρ c (Proc.devRef .tc main_arg6) = W1 m ρ c (Proc.devRef .tc main_arg6) :=
  (StableHlo.after_of_forall_not_mem (b := Proc.devRef .tc main_arg6) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_arg6 m ρ c)

theorem carry4_arg6 (c : Dev nD) : W4 m ρ c (Proc.devRef .tc main_arg6) = W1 m ρ c (Proc.devRef .tc main_arg6) :=
  (W4_of_ne m ρ c main_arg6 (by decide)).trans (carry3_arg6 m ρ c)

theorem carry5_arg6 (c : Dev nD) : W5 m ρ c (Proc.devRef .tc main_arg6) = W1 m ρ c (Proc.devRef .tc main_arg6) :=
  (W5_of_ne m ρ c main_arg6 (by decide)).trans (carry4_arg6 m ρ c)

theorem carry6_arg6 (c : Dev nD) : W6 m ρ c (Proc.devRef .tc main_arg6) = W1 m ρ c (Proc.devRef .tc main_arg6) :=
  (StableHlo.after_of_forall_not_mem (b := Proc.devRef .tc main_arg6) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry5_arg6 m ρ c)

theorem carry7_arg6 (c : Dev nD) : W7 m ρ c (Proc.devRef .tc main_arg6) = W1 m ρ c (Proc.devRef .tc main_arg6) :=
  (W7_of_ne m ρ c main_arg6 (by decide)).trans (carry6_arg6 m ρ c)

/-! ## `main_arg7` -/

theorem carry2_arg7 (c : Dev nD) : W2 m ρ c (Proc.devRef .tc main_arg7) = W1 m ρ c (Proc.devRef .tc main_arg7) :=
  (W2_of_ne m ρ c main_arg7 (by decide))

theorem carry3_arg7 (c : Dev nD) : W3 m ρ c (Proc.devRef .tc main_arg7) = W1 m ρ c (Proc.devRef .tc main_arg7) :=
  (StableHlo.after_of_forall_not_mem (b := Proc.devRef .tc main_arg7) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_arg7 m ρ c)

theorem carry4_arg7 (c : Dev nD) : W4 m ρ c (Proc.devRef .tc main_arg7) = W1 m ρ c (Proc.devRef .tc main_arg7) :=
  (W4_of_ne m ρ c main_arg7 (by decide)).trans (carry3_arg7 m ρ c)

theorem carry5_arg7 (c : Dev nD) : W5 m ρ c (Proc.devRef .tc main_arg7) = W1 m ρ c (Proc.devRef .tc main_arg7) :=
  (W5_of_ne m ρ c main_arg7 (by decide)).trans (carry4_arg7 m ρ c)

theorem carry6_arg7 (c : Dev nD) : W6 m ρ c (Proc.devRef .tc main_arg7) = W1 m ρ c (Proc.devRef .tc main_arg7) :=
  (StableHlo.after_of_forall_not_mem (b := Proc.devRef .tc main_arg7) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry5_arg7 m ρ c)

theorem carry7_arg7 (c : Dev nD) : W7 m ρ c (Proc.devRef .tc main_arg7) = W1 m ρ c (Proc.devRef .tc main_arg7) :=
  (W7_of_ne m ρ c main_arg7 (by decide)).trans (carry6_arg7 m ρ c)

theorem carry8_arg7 (c : Dev nD) : W8 m ρ c (Proc.devRef .tc main_arg7) = W1 m ρ c (Proc.devRef .tc main_arg7) :=
  (W8_of_ne m ρ c main_arg7 (by decide)).trans (carry7_arg7 m ρ c)

/-! ## `main_arg8` -/

theorem carry2_arg8 (c : Dev nD) : W2 m ρ c (Proc.devRef .tc main_arg8) = W1 m ρ c (Proc.devRef .tc main_arg8) :=
  (W2_of_ne m ρ c main_arg8 (by decide))

theorem carry3_arg8 (c : Dev nD) : W3 m ρ c (Proc.devRef .tc main_arg8) = W1 m ρ c (Proc.devRef .tc main_arg8) :=
  (StableHlo.after_of_forall_not_mem (b := Proc.devRef .tc main_arg8) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_arg8 m ρ c)

theorem carry4_arg8 (c : Dev nD) : W4 m ρ c (Proc.devRef .tc main_arg8) = W1 m ρ c (Proc.devRef .tc main_arg8) :=
  (W4_of_ne m ρ c main_arg8 (by decide)).trans (carry3_arg8 m ρ c)

theorem carry5_arg8 (c : Dev nD) : W5 m ρ c (Proc.devRef .tc main_arg8) = W1 m ρ c (Proc.devRef .tc main_arg8) :=
  (W5_of_ne m ρ c main_arg8 (by decide)).trans (carry4_arg8 m ρ c)

theorem carry6_arg8 (c : Dev nD) : W6 m ρ c (Proc.devRef .tc main_arg8) = W1 m ρ c (Proc.devRef .tc main_arg8) :=
  (StableHlo.after_of_forall_not_mem (b := Proc.devRef .tc main_arg8) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry5_arg8 m ρ c)

theorem carry7_arg8 (c : Dev nD) : W7 m ρ c (Proc.devRef .tc main_arg8) = W1 m ρ c (Proc.devRef .tc main_arg8) :=
  (W7_of_ne m ρ c main_arg8 (by decide)).trans (carry6_arg8 m ρ c)

theorem carry8_arg8 (c : Dev nD) : W8 m ρ c (Proc.devRef .tc main_arg8) = W1 m ρ c (Proc.devRef .tc main_arg8) :=
  (W8_of_ne m ρ c main_arg8 (by decide)).trans (carry7_arg8 m ρ c)

theorem carry9_arg8 (c : Dev nD) : W9 m ρ c (Proc.devRef .tc main_arg8) = W1 m ρ c (Proc.devRef .tc main_arg8) :=
  (StableHlo.after_of_forall_not_mem (b := Proc.devRef .tc main_arg8) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry8_arg8 m ρ c)

theorem carry10_arg8 (c : Dev nD) : W10 m ρ c (Proc.devRef .tc main_arg8) = W1 m ρ c (Proc.devRef .tc main_arg8) :=
  (W10_of_ne m ρ c main_arg8 (by decide)).trans (carry9_arg8 m ρ c)

/-! ## `main_arg9` -/

theorem carry2_arg9 (c : Dev nD) : W2 m ρ c (Proc.devRef .tc main_arg9) = W1 m ρ c (Proc.devRef .tc main_arg9) :=
  (W2_of_ne m ρ c main_arg9 (by decide))

theorem carry3_arg9 (c : Dev nD) : W3 m ρ c (Proc.devRef .tc main_arg9) = W1 m ρ c (Proc.devRef .tc main_arg9) :=
  (StableHlo.after_of_forall_not_mem (b := Proc.devRef .tc main_arg9) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry2_arg9 m ρ c)

theorem carry4_arg9 (c : Dev nD) : W4 m ρ c (Proc.devRef .tc main_arg9) = W1 m ρ c (Proc.devRef .tc main_arg9) :=
  (W4_of_ne m ρ c main_arg9 (by decide)).trans (carry3_arg9 m ρ c)

theorem carry5_arg9 (c : Dev nD) : W5 m ρ c (Proc.devRef .tc main_arg9) = W1 m ρ c (Proc.devRef .tc main_arg9) :=
  (W5_of_ne m ρ c main_arg9 (by decide)).trans (carry4_arg9 m ρ c)

theorem carry6_arg9 (c : Dev nD) : W6 m ρ c (Proc.devRef .tc main_arg9) = W1 m ρ c (Proc.devRef .tc main_arg9) :=
  (StableHlo.after_of_forall_not_mem (b := Proc.devRef .tc main_arg9) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry5_arg9 m ρ c)

theorem carry7_arg9 (c : Dev nD) : W7 m ρ c (Proc.devRef .tc main_arg9) = W1 m ρ c (Proc.devRef .tc main_arg9) :=
  (W7_of_ne m ρ c main_arg9 (by decide)).trans (carry6_arg9 m ρ c)

theorem carry8_arg9 (c : Dev nD) : W8 m ρ c (Proc.devRef .tc main_arg9) = W1 m ρ c (Proc.devRef .tc main_arg9) :=
  (W8_of_ne m ρ c main_arg9 (by decide)).trans (carry7_arg9 m ρ c)

theorem carry9_arg9 (c : Dev nD) : W9 m ρ c (Proc.devRef .tc main_arg9) = W1 m ρ c (Proc.devRef .tc main_arg9) :=
  (StableHlo.after_of_forall_not_mem (b := Proc.devRef .tc main_arg9) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry8_arg9 m ρ c)

theorem carry10_arg9 (c : Dev nD) : W10 m ρ c (Proc.devRef .tc main_arg9) = W1 m ρ c (Proc.devRef .tc main_arg9) :=
  (W10_of_ne m ρ c main_arg9 (by decide)).trans (carry9_arg9 m ρ c)

theorem carry11_arg9 (c : Dev nD) : W11 m ρ c (Proc.devRef .tc main_arg9) = W1 m ρ c (Proc.devRef .tc main_arg9) :=
  (W11_of_ne m ρ c main_arg9 (by decide)).trans (carry10_arg9 m ρ c)

end Cert.KernelIdeal.Spine

end
-- ==== Proof.LayerSpec.lean ====
/-
  One graph-convolution layer read entry by entry on the extended reals.

  A layer takes node features `h : [M, K]`, weights `W : [K, N]`, a bias row and the graph's
  normalisation, and produces `act (agg + (h · W) ∘ selfNorm + bias)` where `agg` gathers and
  sums the neighbours' transformed rows. The pieces that do not depend on the graph are written
  here as functions of whole arrays, each defined by its value at an entry `(p, c)`:
  the dense transform `h · W` (`dense`), the combination of the three summands (`combine`),
  the rectifier (`relu`) and the row-wise softmax taken with the row's maximum subtracted
  (`rowMax`, `softmax`). Nothing here mentions a program: both programs are shown to compute
  these functions.
-/
import Idealize.ShloMosaic.PureOps.Ideal
import Idealize.ShloMosaic.Lib.ValueIdx

noncomputable section

open scoped BigOperators

namespace Cert.Gcn

open Idealize.ShloMosaic Idealize.ShloMosaic.ValueIdx

variable {M K N : ℕ}

/-- The dense transform: entry `(p, c)` of the matrix product `A · B`, the sum over the shared axis. -/
def dense (A : FVec Ideal ⟨2, ![M, K]⟩ .f32) (B : FVec Ideal ⟨2, ![K, N]⟩ .f32) : FVec Ideal ⟨2, ![M, N]⟩ .f32 :=
  fun i => ∑ k : Fin K, A (ix2 (n0 := M) (i 0) k) * B (ix2 (n1 := N) k (i 1))

/-- At coordinates. -/
theorem dense_apply (A : FVec Ideal ⟨2, ![M, K]⟩ .f32) (B : FVec Ideal ⟨2, ![K, N]⟩ .f32) (p : Fin M) (c : Fin N) :
    dense A B (ix2 p c) = ∑ k : Fin K, A (ix2 p k) * B (ix2 k c) := rfl

/-- What a layer hands to its nonlinearity: the neighbours' sum, plus the node's own transformed row
    scaled by the node's self-loop weight (a column `[M, 1]`), plus the bias (a row `[1, N]`). -/
def combine (agg hlin : FVec Ideal ⟨2, ![M, N]⟩ .f32) (selfNorm : FVec Ideal ⟨2, ![M, 1]⟩ .f32)
    (bias : FVec Ideal ⟨2, ![1, N]⟩ .f32) : FVec Ideal ⟨2, ![M, N]⟩ .f32 :=
  fun i => agg i + hlin i * selfNorm (ix2 (n0 := M) (i 0) (0 : Fin 1)) + bias (ix2 (n1 := N) (0 : Fin 1) (i 1))

/-- At coordinates. -/
theorem combine_apply (agg hlin : FVec Ideal ⟨2, ![M, N]⟩ .f32) (selfNorm : FVec Ideal ⟨2, ![M, 1]⟩ .f32)
    (bias : FVec Ideal ⟨2, ![1, N]⟩ .f32) (p : Fin M) (c : Fin N) :
    combine agg hlin selfNorm bias (ix2 p c)
      = agg (ix2 p c) + hlin (ix2 p c) * selfNorm (ix2 p (0 : Fin 1)) + bias (ix2 (0 : Fin 1) c) := rfl

/-- The rectifier: the larger of the entry and the number the zero word denotes. -/
def relu {s : Shape} (x : FVec Ideal s .f32) : FVec Ideal s .f32 :=
  fun i => max (x i) (Ideal.ofBits .f32 0x00000000#32)

/-- The largest entry of row `p`, as the fold of `max` over the row from the number the word of −∞ denotes. -/
def rowMax (x : FVec Ideal ⟨2, ![M, N]⟩ .f32) (p : Fin M) : Ideal .f32 :=
  (Finset.univ : Finset (Fin N)).fold max (Ideal.ofBits .f32 0xFF800000#32) (fun k => x (ix2 p k))

/-- The softmax of each row, computed with the row's maximum subtracted before exponentiating. -/
def softmax (x : FVec Ideal ⟨2, ![M, N]⟩ .f32) : FVec Ideal ⟨2, ![M, N]⟩ .f32 :=
  fun i => Ideal.div (Ideal.exp (x i - rowMax x (i 0)))
    (∑ k : Fin N, Ideal.exp (x (ix2 (n0 := M) (i 0) k) - rowMax x (i 0)))

/-- At coordinates. -/
theorem softmax_apply (x : FVec Ideal ⟨2, ![M, N]⟩ .f32) (p : Fin M) (c : Fin N) :
    softmax x (ix2 p c)
      = Ideal.div (Ideal.exp (x (ix2 p c) - rowMax x p)) (∑ k : Fin N, Ideal.exp (x (ix2 p k) - rowMax x p)) := rfl

/-- A hidden layer: transform, aggregate over the graph (`aggr`, whatever it is), combine, rectify. -/
def hidden (aggr : FVec Ideal ⟨2, ![M, N]⟩ .f32 → FVec Ideal ⟨2, ![M, N]⟩ .f32) (selfNorm : FVec Ideal ⟨2, ![M, 1]⟩ .f32)
    (h : FVec Ideal ⟨2, ![M, K]⟩ .f32) (W : FVec Ideal ⟨2, ![K, N]⟩ .f32) (bias : FVec Ideal ⟨2, ![1, N]⟩ .f32) :
    FVec Ideal ⟨2, ![M, N]⟩ .f32 :=
  relu (combine (aggr (dense h W)) (dense h W) selfNorm bias)

/-- The output layer: the same with the row-wise softmax in place of the rectifier. -/
def output (aggr : FVec Ideal ⟨2, ![M, N]⟩ .f32 → FVec Ideal ⟨2, ![M, N]⟩ .f32) (selfNorm : FVec Ideal ⟨2, ![M, 1]⟩ .f32)
    (h : FVec Ideal ⟨2, ![M, K]⟩ .f32) (W : FVec Ideal ⟨2, ![K, N]⟩ .f32) (bias : FVec Ideal ⟨2, ![1, N]⟩ .f32) :
    FVec Ideal ⟨2, ![M, N]⟩ .f32 :=
  softmax (combine (aggr (dense h W)) (dense h W) selfNorm bias)

end Cert.Gcn

end
-- ==== Proof.Network.lean ====
/-
  The four-layer network as one function of the launch memory's argument arrays: the graph's
  aggregation and self-loop weights from the edge list, three hidden layers and the output layer.
-/
import proofs.«107449_j45028437131723_1_alg».proof.Proof.GraphOps
import proofs.«107449_j45028437131723_1_alg».proof.Proof.LayerSpec

noncomputable section

namespace Cert.KernelIdeal.Spine

open Idealize.ShloMosaic Idealize.ShloMosaic.TcCoe Idealize.SL.Sem
open Cert.KernelIdeal Cert.KernelIdeal.Gen Cert.KernelIdeal.Graph

variable (m : (ℓ : Loc nD τ sig) → Buf (Elt Ideal) ℓ)

/-! ## The network of the arguments -/

/-- The aggregation over this launch's edges, on 128 columns. -/
def gAggr128 (c : Dev nD) : FVec Ideal S100000x128 .f32 → FVec Ideal S100000x128 .f32 :=
  aggr128 (srcWords (m ((c : Thread nD τ).loc main_arg1))) (dstWords (m ((c : Thread nD τ).loc main_arg1))) (edgeNorm (srcWords (m ((c : Thread nD τ).loc main_arg1))) (dstWords (m ((c : Thread nD τ).loc main_arg1))))
/-- The same on 40 columns. -/
def gAggr40 (c : Dev nD) : FVec Ideal S100000x40 .f32 → FVec Ideal S100000x40 .f32 :=
  aggr40 (srcWords (m ((c : Thread nD τ).loc main_arg1))) (dstWords (m ((c : Thread nD τ).loc main_arg1))) (edgeNorm (srcWords (m ((c : Thread nD τ).loc main_arg1))) (dstWords (m ((c : Thread nD τ).loc main_arg1))))
/-- The self-loop weights as a column. -/
def gCol (c : Dev nD) : FVec Ideal S100000x1 .f32 := nodeCol (selfNorm (dstWords (m ((c : Thread nD τ).loc main_arg1))))

/-- The first hidden layer's activations. -/
def act1 (c : Dev nD) : FVec Ideal S100000x128 .f32 :=
  Cert.Gcn.hidden (M := 100000) (K := 500) (N := 128) (gAggr128 m c) (gCol m c) (m ((c : Thread nD τ).loc main_arg0)) (m ((c : Thread nD τ).loc main_arg2)) (biasRow128 (m ((c : Thread nD τ).loc main_arg3)))
/-- The second. -/
def act2 (c : Dev nD) : FVec Ideal S100000x128 .f32 :=
  Cert.Gcn.hidden (M := 100000) (K := 128) (N := 128) (gAggr128 m c) (gCol m c) (act1 m c) (m ((c : Thread nD τ).loc main_arg4)) (biasRow128 (m ((c : Thread nD τ).loc main_arg5)))
/-- The third. -/
def act3 (c : Dev nD) : FVec Ideal S100000x128 .f32 :=
  Cert.Gcn.hidden (M := 100000) (K := 128) (N := 128) (gAggr128 m c) (gCol m c) (act2 m c) (m ((c : Thread nD τ).loc main_arg6)) (biasRow128 (m ((c : Thread nD τ).loc main_arg7)))
/-- The class probabilities: the output layer. -/
def network (c : Dev nD) : FVec Ideal S100000x40 .f32 :=
  Cert.Gcn.output (M := 100000) (K := 128) (N := 40) (gAggr40 m c) (gCol m c) (act3 m c) (m ((c : Thread nD τ).loc main_arg8)) (biasRow40 (m ((c : Thread nD τ).loc main_arg9)))

end Cert.KernelIdeal.Spine

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.DensePayload.lean ====
/-
  The four dense-transform bodies read at an entry. Each body rounds a block of rows `x` and the weight
  matrix `w` to the narrower format (the identity on the extended reals), and multiplies them into a zero
  accumulator; read at `(p, q)` the result is `∑ k, x (p, k) * w (k, q)`.
-/
import proofs.«107449_j45028437131723_1_alg».proof.Proof.Gen.KernelIdeal.Skeleton
import proofs.«107449_j45028437131723_1_alg».proof.Proof.LibPlainDot
import Idealize.ShloMosaic.Lib.Pipeline.Value

set_option maxRecDepth 16384

noncomputable section

open scoped BigOperators

namespace Cert.KernelIdeal.RegionValue

open Idealize.ShloMosaic Idealize.SL.Sem Idealize.ShloMosaic.ValueIdx
open Cert.KernelIdeal Cert.KernelIdeal.Gen

/-- The first layer's body at `(p, q)`: row `p` of the block against column `q` of the weights. -/
theorem pay0_apply (x0 : Vec Ideal S2000x500 .f32) (x1 : Vec Ideal S500x128 .f32) (p : Fin 2000) (q : Fin 128) :
    k0_pay1 (F := Ideal) x0 x1 (ix2 p q) = ∑ k : Fin 500, x0 (ix2 p k) * x1 (ix2 k q) := by
  unfold k0_pay1
  exact Cert.Lib.PlainDot.matmul_plain_zero_apply (M := 2000) (K := 500) (N := 128) none
    (truncf .bf16 x0 bitsLt_bf16_f32) (truncf .bf16 x1 bitsLt_bf16_f32) p q

/-- The second layer's body at `(p, q)`; the block is first recast onto its own shape, which changes nothing. -/
theorem pay2_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  rw [shapeCast_self]
  exact Cert.Lib.PlainDot.matmul_plain_zero_apply (M := 2000) (K := 128) (N := 128) none
    (truncf .bf16 x0 bitsLt_bf16_f32) (truncf .bf16 x1 bitsLt_bf16_f32) p q

/-- The third layer's body at `(p, q)`, the same text. -/
theorem pay4_apply (x0 : Vec Ideal S2000x128 .f32) (x1 : Vec Ideal S128x128 .f32) (p : Fin 2000) (q : Fin 128) :
    k4_pay1 (F := Ideal) x0 x1 (ix2 p q) = ∑ k : Fin 128, x0 (ix2 p k) * x1 (ix2 k q) := by
  unfold k4_pay1
  rw [shapeCast_self]
  exact Cert.Lib.PlainDot.matmul_plain_zero_apply (M := 2000) (K := 128) (N := 128) none
    (truncf .bf16 x0 bitsLt_bf16_f32) (truncf .bf16 x1 bitsLt_bf16_f32) p q

/-- The output layer's body at `(p, q)`: forty columns of weights. -/
theorem pay6_apply (x0 : Vec Ideal S2000x128 .f32) (x1 : Vec Ideal S128x40 .f32) (p : Fin 2000) (q : Fin 40) :
    k6_pay1 (F := Ideal) x0 x1 (ix2 p q) = ∑ k : Fin 128, x0 (ix2 p k) * x1 (ix2 k q) := by
  unfold k6_pay1
  rw [shapeCast_self]
  exact Cert.Lib.PlainDot.matmul_plain_zero_apply (M := 2000) (K := 128) (N := 40) none
    (truncf .bf16 x0 bitsLt_bf16_f32) (truncf .bf16 x1 bitsLt_bf16_f32) p q

end Cert.KernelIdeal.RegionValue

end
-- ==== Proof.DenseRegion0.lean ====
/-
  Dense-transform region 0, from blocks to the array. The region walks fifty blocks of two thousand
  rows; at block `t` it multiplies rows `2000·t … 2000·t + 1999` of the feature array by the whole weight
  matrix and writes the product back as the same rows of the output array. Hence, after all the
  write-backs, the output array is the dense transform of the two arrays the region found at its entry.
-/
import proofs.«107449_j45028437131723_1_alg».proof.Proof.Gen.KernelIdeal.Frame
import proofs.«107449_j45028437131723_1_alg».proof.Proof.LayerSpec
import proofs.«107449_j45028437131723_1_alg».proof.Proof.DensePayload
import Idealize.ShloMosaic.Lib.Pipeline.Value

set_option maxRecDepth 16384

noncomputable section

open scoped BigOperators

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The zero offsets of a whole-block access, however spelt. -/
private theorem zero_offsets : (![0, 0] : Fin 2 → Nat) = fun _ => 0 := funext fun a => by fin_cases a <;> rfl

variable (V : (c : Dev nD) → (b : Ref sig .tc) → Buf (Elt Ideal) ((c : Thread nD τ).loc b))

/-! ## Region 0: `main_arg0` [100000, 500] times `main_arg2` [500, 128] into `main_v32` -/

/-- The printed index maps, decided over the grid: the feature window moves with the output window along the
    rows and stays at column block 0, the weight window never moves, and the output's row block is below 50. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row block is some point's. -/
theorem index_onto0 : ∀ q0 : Fin 50, ∃ t : Fin cfg0.N, win0_2.index t = ![q0.val, 0] :=
  (by decide +kernel : ∀ q0 : Fin 50, ∃ t : Fin grid0.N, win0_2.index t = ![q0.val, 0])

/-- The feature window's block at point `t` is rows `2000·t …` of the feature array. -/
theorem rows0_read (c : Dev nD) (t : Fin cfg0.N) (p : Fin 2000) (k : Fin 500) (r : Fin 100000)
    (hr : r.val = win0_2.index t (0 : Fin 2) * 2000 + p.val) :
    iblk0 V c 0 t (ix2 p k) = V c main_arg0 (ix2 r k) := by
  obtain ⟨e0, e1, -, -, -, -⟩ := index_facts0 t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 2000 + 1 * p.val = r.val; omega
  | ⟨1, _⟩ => show win0_0.index t (1 : Fin 2) * 500 + 1 * k.val = k.val; omega

/-- The weight window's block at every point is the whole weight matrix. -/
theorem weights0_read (c : Dev nD) (t : Fin cfg0.N) (k : Fin 500) (q : Fin 128) :
    iblk0 V c 1 t (ix2 k q) = V c main_arg2 (ix2 k q) := by
  obtain ⟨-, -, e2, e3, -, -⟩ := index_facts0 t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 500 + 1 * k.val = k.val; omega
  | ⟨1, _⟩ => show win0_1.index t (1 : Fin 2) * 128 + 1 * q.val = q.val; omega

/-- What point `t` writes back is block `t` of the dense transform of the two arrays as the region finds them. -/
theorem dense0_flushed (c : Dev nD) (t : Fin cfg0.N) :
    (dat0 (F := Ideal) V c).flushed 2 t = ((cfg0.win 2).blk t).view.read (Elt Ideal)
      (Cert.Gcn.dense (M := 100000) (K := 500) (N := 128) (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x500) zero_offsets, View.ld_unit_zero (S := S500x128) zero_offsets]
  obtain ⟨-, -, -, -, e4, e5⟩ := index_facts0 t
  funext j
  obtain ⟨p, q, rfl⟩ : ∃ (p : Fin 2000) (q : Fin 128), j = ix2 p q := ⟨j 0, j 1, eq_ix2 j⟩
  have hr : win0_2.index t (0 : Fin 2) * 2000 + p.val < 100000 := by have := p.isLt; omega
  have hemb : ((cfg0.win 2).blk t).view.emb (ix2 p q)
      = ix2 (n0 := 100000) (n1 := 128) ⟨win0_2.index t (0 : Fin 2) * 2000 + p.val, hr⟩ q := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 128 + 1 * q.val = q.val; omega
  show k0_pay1 (F := Ideal) (iblk0 V c 0 t) (iblk0 V c 1 t) (ix2 p q)
      = Cert.Gcn.dense (M := 100000) (K := 500) (N := 128) (V c main_arg0) (V c main_arg2) (((cfg0.win 2).blk t).view.emb (ix2 p q))
  rw [hemb, Cert.Gcn.dense_apply]
  refine (pay0_apply (iblk0 V c 0 t) (iblk0 V c 1 t) p q).trans ?_
  refine Finset.sum_congr rfl fun k _ => ?_
  rw [rows0_read V c t p k ⟨win0_2.index t (0 : Fin 2) * 2000 + p.val, hr⟩ rfl, weights0_read V c t k q]

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- Every index of the output array is written: row `r` by the point whose row block is `r / 2000`. -/
theorem dense0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after all the write-backs is the dense transform of the region's two input arrays. -/
theorem dense0_final (c : Dev nD) :
    (dat0 (F := Ideal) V c).arrAt 2 cfg0.N = Cert.Gcn.dense (M := 100000) (K := 500) (N := 128) (V c main_arg0) (V c main_arg2) :=
  (dat0 V c).arrAt_eq_of_cover 2 _ (fun t _ => dense0_flushed V c t) (dense0_cover)

end Cert.KernelIdeal.RegionValue

end
-- ==== Proof.DenseRegion2.lean ====
/-
  Dense-transform region 2, from blocks to the array. The region walks fifty blocks of two thousand
  rows; at block `t` it multiplies rows `2000·t … 2000·t + 1999` of the feature array by the whole weight
  matrix and writes the product back as the same rows of the output array. Hence, after all the
  write-backs, the output array is the dense transform of the two arrays the region found at its entry.
-/
import proofs.«107449_j45028437131723_1_alg».proof.Proof.Gen.KernelIdeal.Frame
import proofs.«107449_j45028437131723_1_alg».proof.Proof.LayerSpec
import proofs.«107449_j45028437131723_1_alg».proof.Proof.DensePayload
import Idealize.ShloMosaic.Lib.Pipeline.Value

set_option maxRecDepth 16384

noncomputable section

open scoped BigOperators

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The zero offsets of a whole-block access, however spelt. -/
private theorem zero_offsets : (![0, 0] : Fin 2 → Nat) = fun _ => 0 := funext fun a => by fin_cases a <;> rfl

variable (V : (c : Dev nD) → (b : Ref sig .tc) → Buf (Elt Ideal) ((c : Thread nD τ).loc b))

/-! ## Region 2: `main_v48` [100000, 128] times `main_arg4` [128, 128] into `main_v49` -/

/-- The printed index maps, decided over the grid: the feature window moves with the output window along the
    rows and stays at column block 0, the weight window never moves, and the output's row block is below 50. -/
theorem index_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 49 :=
  (by decide +kernel : ∀ t : Fin grid2.N, _)

/-- Every row block is some point's. -/
theorem index_onto2 : ∀ q0 : Fin 50, ∃ t : Fin cfg2.N, win2_2.index t = ![q0.val, 0] :=
  (by decide +kernel : ∀ q0 : Fin 50, ∃ t : Fin grid2.N, win2_2.index t = ![q0.val, 0])

/-- The feature window's block at point `t` is rows `2000·t …` of the feature array. -/
theorem rows2_read (c : Dev nD) (t : Fin cfg2.N) (p : Fin 2000) (k : Fin 128) (r : Fin 100000)
    (hr : r.val = win2_2.index t (0 : Fin 2) * 2000 + p.val) :
    iblk2 V c 0 t (ix2 p k) = V c main_v48 (ix2 r k) := by
  obtain ⟨e0, e1, -, -, -, -⟩ := index_facts2 t
  show V c main_v48 (((cfg2.win 0).blk t).view.emb (ix2 p k)) = V c main_v48 (ix2 r k)
  refine congrArg (V c main_v48) ?_
  funext a; apply Fin.ext
  match a with
  | ⟨0, _⟩ => show win2_0.index t (0 : Fin 2) * 2000 + 1 * p.val = r.val; omega
  | ⟨1, _⟩ => show win2_0.index t (1 : Fin 2) * 128 + 1 * k.val = k.val; omega

/-- The weight window's block at every point is the whole weight matrix. -/
theorem weights2_read (c : Dev nD) (t : Fin cfg2.N) (k : Fin 128) (q : Fin 128) :
    iblk2 V c 1 t (ix2 k q) = V c main_arg4 (ix2 k q) := by
  obtain ⟨-, -, e2, e3, -, -⟩ := index_facts2 t
  show V c main_arg4 (((cfg2.win 1).blk t).view.emb (ix2 k q)) = V c main_arg4 (ix2 k q)
  refine congrArg (V c main_arg4) ?_
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- What point `t` writes back is block `t` of the dense transform of the two arrays as the region finds them. -/
theorem dense2_flushed (c : Dev nD) (t : Fin cfg2.N) :
    (dat2 (F := Ideal) V c).flushed 2 t = ((cfg2.win 2).blk t).view.read (Elt Ideal)
      (Cert.Gcn.dense (M := 100000) (K := 128) (N := 128) (V c main_v48) (V c main_arg4)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x128) zero_offsets]
  obtain ⟨-, -, -, -, e4, e5⟩ := index_facts2 t
  funext j
  obtain ⟨p, q, rfl⟩ : ∃ (p : Fin 2000) (q : Fin 128), j = ix2 p q := ⟨j 0, j 1, eq_ix2 j⟩
  have hr : win2_2.index t (0 : Fin 2) * 2000 + p.val < 100000 := by have := p.isLt; omega
  have hemb : ((cfg2.win 2).blk t).view.emb (ix2 p q)
      = ix2 (n0 := 100000) (n1 := 128) ⟨win2_2.index t (0 : Fin 2) * 2000 + p.val, hr⟩ q := by
    funext a; apply Fin.ext
    match a with
    | ⟨0, _⟩ => show win2_2.index t (0 : Fin 2) * 2000 + 1 * p.val = win2_2.index t (0 : Fin 2) * 2000 + p.val; omega
    | ⟨1, _⟩ => show win2_2.index t (1 : Fin 2) * 128 + 1 * q.val = q.val; omega
  show k2_pay1 (F := Ideal) (iblk2 V c 0 t) (iblk2 V c 1 t) (ix2 p q)
      = Cert.Gcn.dense (M := 100000) (K := 128) (N := 128) (V c main_v48) (V c main_arg4) (((cfg2.win 2).blk t).view.emb (ix2 p q))
  rw [hemb, Cert.Gcn.dense_apply]
  refine (pay2_apply (iblk2 V c 0 t) (iblk2 V c 1 t) p q).trans ?_
  refine Finset.sum_congr rfl fun k _ => ?_
  rw [rows2_read V c t p k ⟨win2_2.index t (0 : Fin 2) * 2000 + p.val, hr⟩ rfl, weights2_read V c t k q]

/-- An index of the output array is in point `t`'s block iff each coordinate is in the block's range on its axis. -/
theorem mem_block2 (t : Fin cfg2.N) (i : S100000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v49).slice (win2_2.rect t)).set ↔ _
  rw [View.set_slice_whole, Rect.mem_set_unit]
  exact Iff.rfl

/-- Every index of the output array is written: row `r` by the point whose row block is `r / 2000`. -/
theorem dense2_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after all the write-backs is the dense transform of the region's two input arrays. -/
theorem dense2_final (c : Dev nD) :
    (dat2 (F := Ideal) V c).arrAt 2 cfg2.N = Cert.Gcn.dense (M := 100000) (K := 128) (N := 128) (V c main_v48) (V c main_arg4) :=
  (dat2 V c).arrAt_eq_of_cover 2 _ (fun t _ => dense2_flushed V c t) (dense2_cover)

end Cert.KernelIdeal.RegionValue

end
-- ==== Proof.DenseRegion4.lean ====
/-
  Dense-transform region 4, from blocks to the array. The region walks fifty blocks of two thousand
  rows; at block `t` it multiplies rows `2000·t … 2000·t + 1999` of the feature array by the whole weight
  matrix and writes the product back as the same rows of the output array. Hence, after all the
  write-backs, the output array is the dense transform of the two arrays the region found at its entry.
-/
import proofs.«107449_j45028437131723_1_alg».proof.Proof.Gen.KernelIdeal.Frame
import proofs.«107449_j45028437131723_1_alg».proof.Proof.LayerSpec
import proofs.«107449_j45028437131723_1_alg».proof.Proof.DensePayload
import Idealize.ShloMosaic.Lib.Pipeline.Value

set_option maxRecDepth 16384

noncomputable section

open scoped BigOperators

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The zero offsets of a whole-block access, however spelt. -/
private theorem zero_offsets : (![0, 0] : Fin 2 → Nat) = fun _ => 0 := funext fun a => by fin_cases a <;> rfl

variable (V : (c : Dev nD) → (b : Ref sig .tc) → Buf (Elt Ideal) ((c : Thread nD τ).loc b))

/-! ## Region 4: `main_v65` [100000, 128] times `main_arg6` [128, 128] into `main_v66` -/

/-- The printed index maps, decided over the grid: the feature window moves with the output window along the
    rows and stays at column block 0, the weight window never moves, and the output's row block is below 50. -/
theorem index_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 49 :=
  (by decide +kernel : ∀ t : Fin grid4.N, _)

/-- Every row block is some point's. -/
theorem index_onto4 : ∀ q0 : Fin 50, ∃ t : Fin cfg4.N, win4_2.index t = ![q0.val, 0] :=
  (by decide +kernel : ∀ q0 : Fin 50, ∃ t : Fin grid4.N, win4_2.index t = ![q0.val, 0])

/-- The feature window's block at point `t` is rows `2000·t …` of the feature array. -/
theorem rows4_read (c : Dev nD) (t : Fin cfg4.N) (p : Fin 2000) (k : Fin 128) (r : Fin 100000)
    (hr : r.val = win4_2.index t (0 : Fin 2) * 2000 + p.val) :
    iblk4 V c 0 t (ix2 p k) = V c main_v65 (ix2 r k) := by
  obtain ⟨e0, e1, -, -, -, -⟩ := index_facts4 t
  show V c main_v65 (((cfg4.win 0).blk t).view.emb (ix2 p k)) = V c main_v65 (ix2 r k)
  refine congrArg (V c main_v65) ?_
  funext a; apply Fin.ext
  match a with
  | ⟨0, _⟩ => show win4_0.index t (0 : Fin 2) * 2000 + 1 * p.val = r.val; omega
  | ⟨1, _⟩ => show win4_0.index t (1 : Fin 2) * 128 + 1 * k.val = k.val; omega

/-- The weight window's block at every point is the whole weight matrix. -/
theorem weights4_read (c : Dev nD) (t : Fin cfg4.N) (k : Fin 128) (q : Fin 128) :
    iblk4 V c 1 t (ix2 k q) = V c main_arg6 (ix2 k q) := by
  obtain ⟨-, -, e2, e3, -, -⟩ := index_facts4 t
  show V c main_arg6 (((cfg4.win 1).blk t).view.emb (ix2 k q)) = V c main_arg6 (ix2 k q)
  refine congrArg (V c main_arg6) ?_
  funext a; apply Fin.ext
  match a with
  | ⟨0, _⟩ => show win4_1.index t (0 : Fin 2) * 128 + 1 * k.val = k.val; omega
  | ⟨1, _⟩ => show win4_1.index t (1 : Fin 2) * 128 + 1 * q.val = q.val; omega

/-- What point `t` writes back is block `t` of the dense transform of the two arrays as the region finds them. -/
theorem dense4_flushed (c : Dev nD) (t : Fin cfg4.N) :
    (dat4 (F := Ideal) V c).flushed 2 t = ((cfg4.win 2).blk t).view.read (Elt Ideal)
      (Cert.Gcn.dense (M := 100000) (K := 128) (N := 128) (V c main_v65) (V c main_arg6)) := by
  show (cfg4.win 2).cut (grid4.coords t) ((dat4 V c).after 2 t) = _
  rw [after4_2]
  unfold out4_2
  rw [View.canon_unit_zero zero_offsets]
  simp only [View.ld_unit_zero (S := S2000x128) zero_offsets, View.ld_unit_zero (S := S128x128) zero_offsets]
  obtain ⟨-, -, -, -, e4, e5⟩ := index_facts4 t
  funext j
  obtain ⟨p, q, rfl⟩ : ∃ (p : Fin 2000) (q : Fin 128), j = ix2 p q := ⟨j 0, j 1, eq_ix2 j⟩
  have hr : win4_2.index t (0 : Fin 2) * 2000 + p.val < 100000 := by have := p.isLt; omega
  have hemb : ((cfg4.win 2).blk t).view.emb (ix2 p q)
      = ix2 (n0 := 100000) (n1 := 128) ⟨win4_2.index t (0 : Fin 2) * 2000 + p.val, hr⟩ q := by
    funext a; apply Fin.ext
    match a with
    | ⟨0, _⟩ => show win4_2.index t (0 : Fin 2) * 2000 + 1 * p.val = win4_2.index t (0 : Fin 2) * 2000 + p.val; omega
    | ⟨1, _⟩ => show win4_2.index t (1 : Fin 2) * 128 + 1 * q.val = q.val; omega
  show k4_pay1 (F := Ideal) (iblk4 V c 0 t) (iblk4 V c 1 t) (ix2 p q)
      = Cert.Gcn.dense (M := 100000) (K := 128) (N := 128) (V c main_v65) (V c main_arg6) (((cfg4.win 2).blk t).view.emb (ix2 p q))
  rw [hemb, Cert.Gcn.dense_apply]
  refine (pay4_apply (iblk4 V c 0 t) (iblk4 V c 1 t) p q).trans ?_
  refine Finset.sum_congr rfl fun k _ => ?_
  rw [rows4_read V c t p k ⟨win4_2.index t (0 : Fin 2) * 2000 + p.val, hr⟩ rfl, weights4_read V c t k q]

/-- An index of the output array is in point `t`'s block iff each coordinate is in the block's range on its axis. -/
theorem mem_block4 (t : Fin cfg4.N) (i : S100000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v66).slice (win4_2.rect t)).set ↔ _
  rw [View.set_slice_whole, Rect.mem_set_unit]
  exact Iff.rfl

/-- Every index of the output array is written: row `r` by the point whose row block is `r / 2000`. -/
theorem dense4_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := index_onto4 ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The output array after all the write-backs is the dense transform of the region's two input arrays. -/
theorem dense4_final (c : Dev nD) :
    (dat4 (F := Ideal) V c).arrAt 2 cfg4.N = Cert.Gcn.dense (M := 100000) (K := 128) (N := 128) (V c main_v65) (V c main_arg6) :=
  (dat4 V c).arrAt_eq_of_cover 2 _ (fun t _ => dense4_flushed V c t) (dense4_cover)

end Cert.KernelIdeal.RegionValue

end
-- ==== Proof.DenseRegion6.lean ====
/-
  Dense-transform region 6, from blocks to the array. The region walks fifty blocks of two thousand
  rows; at block `t` it multiplies rows `2000·t … 2000·t + 1999` of the feature array by the whole weight
  matrix and writes the product back as the same rows of the output array. Hence, after all the
  write-backs, the output array is the dense transform of the two arrays the region found at its entry.
-/
import proofs.«107449_j45028437131723_1_alg».proof.Proof.Gen.KernelIdeal.Frame
import proofs.«107449_j45028437131723_1_alg».proof.Proof.LayerSpec
import proofs.«107449_j45028437131723_1_alg».proof.Proof.DensePayload
import Idealize.ShloMosaic.Lib.Pipeline.Value

set_option maxRecDepth 16384

noncomputable section

open scoped BigOperators

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The zero offsets of a whole-block access, however spelt. -/
private theorem zero_offsets : (![0, 0] : Fin 2 → Nat) = fun _ => 0 := funext fun a => by fin_cases a <;> rfl

variable (V : (c : Dev nD) → (b : Ref sig .tc) → Buf (Elt Ideal) ((c : Thread nD τ).loc b))

/-! ## Region 6: `main_v82` [100000, 128] times `main_arg8` [128, 40] into `main_v83` -/

/-- The printed index maps, decided over the grid: the feature window moves with the output window along the
    rows and stays at column block 0, the weight window never moves, and the output's row block is below 50. -/
theorem index_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 49 :=
  (by decide +kernel : ∀ t : Fin grid6.N, _)

/-- Every row block is some point's. -/
theorem index_onto6 : ∀ q0 : Fin 50, ∃ t : Fin cfg6.N, win6_2.index t = ![q0.val, 0] :=
  (by decide +kernel : ∀ q0 : Fin 50, ∃ t : Fin grid6.N, win6_2.index t = ![q0.val, 0])

/-- The feature window's block at point `t` is rows `2000·t …` of the feature array. -/
theorem rows6_read (c : Dev nD) (t : Fin cfg6.N) (p : Fin 2000) (k : Fin 128) (r : Fin 100000)
    (hr : r.val = win6_2.index t (0 : Fin 2) * 2000 + p.val) :
    iblk6 V c 0 t (ix2 p k) = V c main_v82 (ix2 r k) := by
  obtain ⟨e0, e1, -, -, -, -⟩ := index_facts6 t
  show V c main_v82 (((cfg6.win 0).blk t).view.emb (ix2 p k)) = V c main_v82 (ix2 r k)
  refine congrArg (V c main_v82) ?_
  funext a; apply Fin.ext
  match a with
  | ⟨0, _⟩ => show win6_0.index t (0 : Fin 2) * 2000 + 1 * p.val = r.val; omega
  | ⟨1, _⟩ => show win6_0.index t (1 : Fin 2) * 128 + 1 * k.val = k.val; omega

/-- The weight window's block at every point is the whole weight matrix. -/
theorem weights6_read (c : Dev nD) (t : Fin cfg6.N) (k : Fin 128) (q : Fin 40) :
    iblk6 V c 1 t (ix2 k q) = V c main_arg8 (ix2 k q) := by
  obtain ⟨-, -, e2, e3, -, -⟩ := index_facts6 t
  show V c main_arg8 (((cfg6.win 1).blk t).view.emb (ix2 k q)) = V c main_arg8 (ix2 k q)
  refine congrArg (V c main_arg8) ?_
  funext a; apply Fin.ext
  match a with
  | ⟨0, _⟩ => show win6_1.index t (0 : Fin 2) * 128 + 1 * k.val = k.val; omega
  | ⟨1, _⟩ => show win6_1.index t (1 : Fin 2) * 40 + 1 * q.val = q.val; omega

/-- What point `t` writes back is block `t` of the dense transform of the two arrays as the region finds them. -/
theorem dense6_flushed (c : Dev nD) (t : Fin cfg6.N) :
    (dat6 (F := Ideal) V c).flushed 2 t = ((cfg6.win 2).blk t).view.read (Elt Ideal)
      (Cert.Gcn.dense (M := 100000) (K := 128) (N := 40) (V c main_v82) (V c main_arg8)) := by
  show (cfg6.win 2).cut (grid6.coords t) ((dat6 V c).after 2 t) = _
  rw [after6_2]
  unfold out6_2
  rw [View.canon_unit_zero zero_offsets]
  simp only [View.ld_unit_zero (S := S2000x128) zero_offsets, View.ld_unit_zero (S := S128x40) zero_offsets]
  obtain ⟨-, -, -, -, e4, e5⟩ := index_facts6 t
  funext j
  obtain ⟨p, q, rfl⟩ : ∃ (p : Fin 2000) (q : Fin 40), j = ix2 p q := ⟨j 0, j 1, eq_ix2 j⟩
  have hr : win6_2.index t (0 : Fin 2) * 2000 + p.val < 100000 := by have := p.isLt; omega
  have hemb : ((cfg6.win 2).blk t).view.emb (ix2 p q)
      = ix2 (n0 := 100000) (n1 := 40) ⟨win6_2.index t (0 : Fin 2) * 2000 + p.val, hr⟩ q := by
    funext a; apply Fin.ext
    match a with
    | ⟨0, _⟩ => show win6_2.index t (0 : Fin 2) * 2000 + 1 * p.val = win6_2.index t (0 : Fin 2) * 2000 + p.val; omega
    | ⟨1, _⟩ => show win6_2.index t (1 : Fin 2) * 40 + 1 * q.val = q.val; omega
  show k6_pay1 (F := Ideal) (iblk6 V c 0 t) (iblk6 V c 1 t) (ix2 p q)
      = Cert.Gcn.dense (M := 100000) (K := 128) (N := 40) (V c main_v82) (V c main_arg8) (((cfg6.win 2).blk t).view.emb (ix2 p q))
  rw [hemb, Cert.Gcn.dense_apply]
  refine (pay6_apply (iblk6 V c 0 t) (iblk6 V c 1 t) p q).trans ?_
  refine Finset.sum_congr rfl fun k _ => ?_
  rw [rows6_read V c t p k ⟨win6_2.index t (0 : Fin 2) * 2000 + p.val, hr⟩ rfl, weights6_read V c t k q]

/-- An index of the output array is in point `t`'s block iff each coordinate is in the block's range on its axis. -/
theorem mem_block6 (t : Fin cfg6.N) (i : S100000x40.Idx) :
    i ∈ ((cfg6.win 2).blk t).view.set ↔ ∀ a : Fin 2, win6_2.index t a * S2000x40.size a ≤ (i a).val
      ∧ (i a).val < win6_2.index t a * S2000x40.size a + S2000x40.size a := by
  show i ∈ ((View.whole main_v83).slice (win6_2.rect t)).set ↔ _
  rw [View.set_slice_whole, Rect.mem_set_unit]
  exact Iff.rfl

/-- Every index of the output array is written: row `r` by the point whose row block is `r / 2000`. -/
theorem dense6_cover (i : S100000x40.Idx) :
    ∃ t : Fin cfg6.N, (cfg6.win 2).flush t = true ∧ i ∈ ((cfg6.win 2).blk t).view.set := by
  have hi0 : (i 0).val < 100000 := (i 0).isLt
  have hi1 : (i 1).val < 40 := (i 1).isLt
  obtain ⟨t, ht⟩ := index_onto6 ⟨(i 0).val / 2000, by omega⟩
  have q0 : win6_2.index t (0 : Fin 2) = (i 0).val / 2000 := congrFun ht 0
  have q1 : win6_2.index t (1 : Fin 2) = 0 := congrFun ht 1
  refine ⟨t, flush6_2 t, ?_⟩
  rw [mem_block6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 40 ≤ (i 1).val ∧ (i 1).val < win6_2.index t (1 : Fin 2) * 40 + 40; omega

/-- The output array after all the write-backs is the dense transform of the region's two input arrays. -/
theorem dense6_final (c : Dev nD) :
    (dat6 (F := Ideal) V c).arrAt 2 cfg6.N = Cert.Gcn.dense (M := 100000) (K := 128) (N := 40) (V c main_v82) (V c main_arg8) :=
  (dat6 V c).arrAt_eq_of_cover 2 _ (fun t _ => dense6_flushed V c t) (dense6_cover)

end Cert.KernelIdeal.RegionValue

end
-- ==== Proof.DenseRegions.lean ====
/-
  The four dense-transform regions of the network, one module each: after its write-backs, each region's
  output array is the dense transform of the feature array and the weight matrix it found at entry
  (`dense0_final`, `dense2_final`, `dense4_final`, `dense6_final`).
-/
import proofs.«107449_j45028437131723_1_alg».proof.Proof.DenseRegion0
import proofs.«107449_j45028437131723_1_alg».proof.Proof.DenseRegion2
import proofs.«107449_j45028437131723_1_alg».proof.Proof.DenseRegion4
import proofs.«107449_j45028437131723_1_alg».proof.Proof.DenseRegion6
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.CombinePayload.lean ====
/-
  The bodies of the four combining regions read at one entry of a block: three times the sum of an aggregated entry,
  the node's own transformed entry scaled by its self-loop weight, and a bias, rectified; and once the same sum on
  40 columns followed by a softmax along each row, which is the layer's softmax of the layer's combination of the
  four blocks.
-/
import proofs.«107449_j45028437131723_1_alg».proof.Proof.Gen.KernelIdeal.Skeleton
import proofs.«107449_j45028437131723_1_alg».proof.Proof.LayerSpec
import proofs.«107449_j45028437131723_1_alg».proof.Proof.LibKeepdims
import Idealize.ShloMosaic.Lib.ValueLayout
import Idealize.ShloMosaic.Lib.Pipeline.Value

set_option maxRecDepth 16384

noncomputable section

open scoped BigOperators

namespace Cert.KernelIdeal.CombinePayload

open Idealize.ShloMosaic Idealize.ShloMosaic.ValueIdx
open Cert.KernelIdeal Cert.KernelIdeal.Gen

/-- The zero offsets of a whole-block access, as a constant function. -/
theorem zero_offsets : (![0, 0] : Fin 2 → Nat) = fun _ => 0 := funext fun a => by fin_cases a <;> rfl

/-! ## The hidden layers' bodies -/

/-- The rectified combination of region 1's body at entry (p, q) of a block: the aggregated entry, plus the node's own
    transformed entry scaled by the node's self-loop weight, plus the bias of the column, bounded below by zero. -/
theorem k1_pay1_apply (x0 x1 : Vec Ideal S2000x128 .f32) (x2 : Vec Ideal S2000x1 .f32) (x3 : Vec Ideal S1x128 .f32)
    (p : Fin 2000) (q : Fin 128) :
    k1_pay1 (F := Ideal) x0 x1 x2 x3 (ix2 p q)
      = max (x0 (ix2 p q) + x1 (ix2 p q) * x2 (ix2 p (0 : Fin 1)) + x3 (ix2 (0 : Fin 1) q)) (Ideal.ofBits .f32 0x00000000#32) := by
  unfold k1_pay1
  simp only [shapeCast_self]
  show max (x0 (ix2 p q) + x1 (ix2 p q) * broadcastTo S2000x128 x2 broadcasts_S2000x1_S2000x128 (ix2 p q)
      + broadcastTo S2000x128 x3 broadcasts_S1x128_S2000x128 (ix2 p q)) (Ideal.ofBits .f32 0x00000000#32) = _
  rw [Cert.Lib.Keepdims.broadcastTo_a1_ab_apply x2 broadcasts_S2000x1_S2000x128 p q,
    broadcastTo_1b_ab_apply x3 broadcasts_S1x128_S2000x128 p q]

/-- The rectified combination of region 3's body at entry (p, q) of a block: the aggregated entry, plus the node's own
    transformed entry scaled by the node's self-loop weight, plus the bias of the column, bounded below by zero. -/
theorem k3_pay1_apply (x0 x1 : Vec Ideal S2000x128 .f32) (x2 : Vec Ideal S2000x1 .f32) (x3 : Vec Ideal S1x128 .f32)
    (p : Fin 2000) (q : Fin 128) :
    k3_pay1 (F := Ideal) x0 x1 x2 x3 (ix2 p q)
      = max (x0 (ix2 p q) + x1 (ix2 p q) * x2 (ix2 p (0 : Fin 1)) + x3 (ix2 (0 : Fin 1) q)) (Ideal.ofBits .f32 0x00000000#32) := by
  unfold k3_pay1
  simp only [shapeCast_self]
  show max (x0 (ix2 p q) + x1 (ix2 p q) * broadcastTo S2000x128 x2 broadcasts_S2000x1_S2000x128 (ix2 p q)
      + broadcastTo S2000x128 x3 broadcasts_S1x128_S2000x128 (ix2 p q)) (Ideal.ofBits .f32 0x00000000#32) = _
  rw [Cert.Lib.Keepdims.broadcastTo_a1_ab_apply x2 broadcasts_S2000x1_S2000x128 p q,
    broadcastTo_1b_ab_apply x3 broadcasts_S1x128_S2000x128 p q]

/-- The rectified combination of region 5's body at entry (p, q) of a block: the aggregated entry, plus the node's own
    transformed entry scaled by the node's self-loop weight, plus the bias of the column, bounded below by zero. -/
theorem k5_pay1_apply (x0 x1 : Vec Ideal S2000x128 .f32) (x2 : Vec Ideal S2000x1 .f32) (x3 : Vec Ideal S1x128 .f32)
    (p : Fin 2000) (q : Fin 128) :
    k5_pay1 (F := Ideal) x0 x1 x2 x3 (ix2 p q)
      = max (x0 (ix2 p q) + x1 (ix2 p q) * x2 (ix2 p (0 : Fin 1)) + x3 (ix2 (0 : Fin 1) q)) (Ideal.ofBits .f32 0x00000000#32) := by
  unfold k5_pay1
  simp only [shapeCast_self]
  show max (x0 (ix2 p q) + x1 (ix2 p q) * broadcastTo S2000x128 x2 broadcasts_S2000x1_S2000x128 (ix2 p q)
      + broadcastTo S2000x128 x3 broadcasts_S1x128_S2000x128 (ix2 p q)) (Ideal.ofBits .f32 0x00000000#32) = _
  rw [Cert.Lib.Keepdims.broadcastTo_a1_ab_apply x2 broadcasts_S2000x1_S2000x128 p q,
    broadcastTo_1b_ab_apply x3 broadcasts_S1x128_S2000x128 p q]

/-! ## A block's combination against the arrays' -/

/-- The combination of four blocks at an entry, each block read off an array at the matching place, is the arrays'
    combination at the entry's place. -/
theorem combine_block {m M N : ℕ} (A0 A1 : FVec Ideal ⟨2, ![M, N]⟩ .f32) (A2 : FVec Ideal ⟨2, ![M, 1]⟩ .f32)
    (A3 : FVec Ideal ⟨2, ![1, N]⟩ .f32)
    (x0 x1 : FVec Ideal ⟨2, ![m, N]⟩ .f32) (x2 : FVec Ideal ⟨2, ![m, 1]⟩ .f32) (x3 : FVec Ideal ⟨2, ![1, N]⟩ .f32)
    (p : Fin m) (q : Fin N) (i : (⟨2, ![M, N]⟩ : Shape).Idx)
    (h0 : x0 (ix2 p q) = A0 i) (h1 : x1 (ix2 p q) = A1 i)
    (h2 : x2 (ix2 p (0 : Fin 1)) = A2 (ix2 (i 0) (0 : Fin 1))) (h3 : x3 (ix2 (0 : Fin 1) q) = A3 (ix2 (0 : Fin 1) (i 1))) :
    Cert.Gcn.combine x0 x1 x2 x3 (ix2 p q) = Cert.Gcn.combine A0 A1 A2 A3 i := by
  rw [Cert.Gcn.combine_apply, h0, h1, h2, h3]
  rfl

/-! ## The output layer's body: the same sum on 40 columns, then a softmax along each row -/

/-- The sum of the three summands as the body writes it. -/
def aff7 (x0 x1 : Vec Ideal S2000x40 .f32) (x2 : Vec Ideal S2000x1 .f32) (x3 : Vec Ideal S1x40 .f32) : FVec Ideal S2000x40 .f32 :=
  addf (addf (shapeCast S2000x40 x0 shapeCasts_S2000x40_S2000x40)
      (mulf (shapeCast S2000x40 x1 shapeCasts_S2000x40_S2000x40)
        (broadcastTo S2000x40 (shapeCast S2000x1 x2 shapeCasts_S2000x1_S2000x1) broadcasts_S2000x1_S2000x40)))
    (broadcastTo S2000x40 (shapeCast S1x40 x3 shapeCasts_S1x40_S1x40) broadcasts_S1x40_S2000x40)

/-- It is the layer's combination of the four blocks. -/
theorem aff7_eq (x0 x1 : Vec Ideal S2000x40 .f32) (x2 : Vec Ideal S2000x1 .f32) (x3 : Vec Ideal S1x40 .f32) :
    aff7 x0 x1 x2 x3 = Cert.Gcn.combine (M := 2000) (N := 40) x0 x1 x2 x3 := by
  funext j
  obtain ⟨p, q, rfl⟩ : ∃ (p : Fin 2000) (q : Fin 40), j = ix2 p q := ⟨j 0, j 1, eq_ix2 j⟩
  unfold aff7
  simp only [shapeCast_self]
  show x0 (ix2 p q) + x1 (ix2 p q) * broadcastTo S2000x40 x2 broadcasts_S2000x1_S2000x40 (ix2 p q)
      + broadcastTo S2000x40 x3 broadcasts_S1x40_S2000x40 (ix2 p q) = _
  rw [Cert.Lib.Keepdims.broadcastTo_a1_ab_apply x2 broadcasts_S2000x1_S2000x40 p q,
    broadcastTo_1b_ab_apply x3 broadcasts_S1x40_S2000x40 p q]
  rfl

/-- A maximum over a matrix's last axis from the word of −∞, at exact arithmetic, is at row p that row's largest entry. -/
theorem rowMax_red {a b : ℕ} (src : FVec Ideal ⟨2, ![a, b]⟩ .f32) (h : (⟨2, ![a, b]⟩ : Shape).Reduces [1] (⟨1, ![a]⟩ : Shape))
    (hφ : FKind.Formats .f32) (hacc : (0xFF800000#32 : BitVec 32) = 0xFF800000#32) (p : Fin a) :
    multiReduction (F := Ideal) .maximumf [1] ⟨1, ![a]⟩ src 0xFF800000#32 h hφ hacc (ix1 p) = Cert.Gcn.rowMax src p := by
  refine (Ideal.multiReduction_maximumf_single src 0xFF800000#32 h hφ hacc (ix1 p)).trans ?_
  show (Finset.univ : Finset (Fin b)).fold max (Ideal.ofBits .f32 0xFF800000#32) (fun k => src (h.lift (ix1 p) k)) = _
  exact Finset.fold_congr fun k _ => congrArg src (Cert.Lib.Keepdims.lift_lastAxis h p k)

/-- Each row's largest entry, spread back over the row's 40 lanes, as the body writes it. -/
def rowMaxLanes (v : FVec Ideal S2000x40 .f32) : FVec Ideal S2000x40 .f32 :=
  broadcastTo S2000x40 (shapeCast S2000x1
    (multiReduction (F := Ideal) .maximumf [1] S2000 v 0xFF800000#32 reduces_S2000x40_S2000 (.inl rfl) rfl)
    shapeCasts_S2000_S2000x1) broadcasts_S2000x1_S2000x40

theorem rowMaxLanes_apply (v : FVec Ideal S2000x40 .f32) (p : Fin 2000) (q : Fin 40) :
    rowMaxLanes v (ix2 p q) = Cert.Gcn.rowMax v p :=
  (Cert.Lib.Keepdims.broadcastTo_a1_ab_apply _ broadcasts_S2000x1_S2000x40 p q).trans
    ((Cert.Lib.Keepdims.shapeCast_a_a1_apply _ shapeCasts_S2000_S2000x1 p (0 : Fin 1)).trans
      (rowMax_red v reduces_S2000x40_S2000 (.inl rfl) rfl p))

/-- Each row's sum, spread back over the row's 40 lanes, as the body writes it. -/
def rowSumLanes (e : FVec Ideal S2000x40 .f32) : FVec Ideal S2000x40 .f32 :=
  broadcastTo S2000x40 (shapeCast S2000x1
    (multiReduction (F := Ideal) .add [1] S2000 e 0x00000000#32 reduces_S2000x40_S2000 (.inl rfl) rfl)
    shapeCasts_S2000_S2000x1) broadcasts_S2000x1_S2000x40

theorem rowSumLanes_apply (e : FVec Ideal S2000x40 .f32) (p : Fin 2000) (q : Fin 40) :
    rowSumLanes e (ix2 p q) = ∑ k : Fin 40, e (ix2 p k) :=
  (Cert.Lib.Keepdims.broadcastTo_a1_ab_apply _ broadcasts_S2000x1_S2000x40 p q).trans
    ((Cert.Lib.Keepdims.shapeCast_a_a1_apply _ shapeCasts_S2000_S2000x1 p (0 : Fin 1)).trans
      (Cert.Lib.Keepdims.rowSum_apply e reduces_S2000x40_S2000 (.inl rfl) rfl p))

/-- The body is its sum followed by the softmax's five steps. -/
theorem k7_pay1_steps (x0 x1 : Vec Ideal S2000x40 .f32) (x2 : Vec Ideal S2000x1 .f32) (x3 : Vec Ideal S1x40 .f32) :
    k7_pay1 (F := Ideal) x0 x1 x2 x3
      = divf (exp (subf (aff7 x0 x1 x2 x3) (rowMaxLanes (aff7 x0 x1 x2 x3))))
          (rowSumLanes (exp (subf (aff7 x0 x1 x2 x3) (rowMaxLanes (aff7 x0 x1 x2 x3))))) := rfl

/-- Those five steps are the row-wise softmax with the row's maximum subtracted. -/
theorem softmax_steps (v : FVec Ideal S2000x40 .f32) :
    divf (exp (subf v (rowMaxLanes v))) (rowSumLanes (exp (subf v (rowMaxLanes v)))) = Cert.Gcn.softmax v := by
  funext j
  obtain ⟨p, q, rfl⟩ : ∃ (p : Fin 2000) (q : Fin 40), j = ix2 p q := ⟨j 0, j 1, eq_ix2 j⟩
  rw [Cert.Gcn.softmax_apply]
  show Ideal.div (Ideal.exp (v (ix2 p q) - rowMaxLanes v (ix2 p q))) (rowSumLanes (exp (subf v (rowMaxLanes v))) (ix2 p q)) = _
  rw [rowMaxLanes_apply, rowSumLanes_apply]
  refine congrArg _ (Finset.sum_congr rfl fun k _ => ?_)
  show Ideal.exp (v (ix2 p k) - rowMaxLanes v (ix2 p k)) = _
  rw [rowMaxLanes_apply]

/-- The output layer's body on four blocks is the softmax of their combination. -/
theorem k7_pay1_eq (x0 x1 : Vec Ideal S2000x40 .f32) (x2 : Vec Ideal S2000x1 .f32) (x3 : Vec Ideal S1x40 .f32) :
    k7_pay1 (F := Ideal) x0 x1 x2 x3 = Cert.Gcn.softmax (Cert.Gcn.combine (M := 2000) (N := 40) x0 x1 x2 x3) := by
  rw [k7_pay1_steps, softmax_steps, aff7_eq]

/-- A row's softmax depends on that row only: two matrices that agree along a row of each have the same softmax there. -/
theorem softmax_row_congr {M M' N : ℕ} (x : FVec Ideal ⟨2, ![M, N]⟩ .f32) (y : FVec Ideal ⟨2, ![M', N]⟩ .f32)
    (p : Fin M) (r : Fin M') (q : Fin N) (h : ∀ k : Fin N, x (ix2 p k) = y (ix2 r k)) :
    Cert.Gcn.softmax x (ix2 p q) = Cert.Gcn.softmax y (ix2 r q) := by
  have hm : Cert.Gcn.rowMax x p = Cert.Gcn.rowMax y r := by
    unfold Cert.Gcn.rowMax
    exact Finset.fold_congr fun k _ => h k
  rw [Cert.Gcn.softmax_apply, Cert.Gcn.softmax_apply, hm, h q]
  exact congrArg _ (Finset.sum_congr rfl fun k _ => by rw [h k])

end Cert.KernelIdeal.CombinePayload

end
-- ==== Proof.CombineRegion1.lean ====
/-
  The first hidden layer's combining region: its grid of 50 points, point t holding rows 2000·t … 2000·t + 1999 of the
  aggregated, the transformed and the self-loop arrays and the whole bias row, leaves in its output array the rectified
  combination of the four arrays it found at entry. Each point's write-back is that function's block; the blocks cover the
  array.
-/
import proofs.«107449_j45028437131723_1_alg».proof.Proof.Gen.KernelIdeal.Frame
import proofs.«107449_j45028437131723_1_alg».proof.Proof.LayerSpec
import proofs.«107449_j45028437131723_1_alg».proof.Proof.CombinePayload
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

open Cert.KernelIdeal.CombinePayload (zero_offsets)

/-! ## Region 1: the blocks' places in the arrays -/

/-- The block indices at a point, decided over the grid: the three row-blocked inputs and the output sit at row block
    `t`, column block 0; the bias row is always its one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block of the output is some point's. -/
theorem onto1 : ∀ q0 : Fin 50, ∃ t : Fin cfg1.N, win1_4.index t = ![q0.val, 0] :=
  (by decide +kernel : ∀ q0 : Fin 50, ∃ t : Fin grid1.N, win1_4.index t = ![q0.val, 0])

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v48).slice (win1_4.rect t)).set ↔ _
  rw [View.set_slice_whole, Rect.mem_set_unit]
  exact Iff.rfl

/-- Every entry of the output array is written back: row `r` by the point of row block `r / 2000`. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := onto1 ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- Where entry (p, q) of point `t`'s output block sits in the array: row 2000·t + p, column q. -/
theorem emb4_1 (t : Fin cfg1.N) (p : Fin 2000) (q : Fin 128) :
    ((((cfg1.win 4).blk t).view.emb (ix2 p q) : S100000x128.Idx) 0).val = t.val * 2000 + p.val
    ∧ ((((cfg1.win 4).blk t).view.emb (ix2 p q) : S100000x128.Idx) 1).val = q.val := by
  obtain ⟨-, -, -, -, -, -, -, -, e0, e1⟩ := idx1 t
  constructor
  · show win1_4.index t (0 : Fin 2) * 2000 + 1 * p.val = _; omega
  · show win1_4.index t (1 : Fin 2) * 128 + 1 * q.val = _; omega

/-- The aggregated input's block sits where the output's does. -/
theorem emb0_1 (t : Fin cfg1.N) (p : Fin 2000) (q : Fin 128) :
    (((cfg1.win 0).blk t).view.emb (ix2 p q) : S100000x128.Idx) = ((cfg1.win 4).blk t).view.emb (ix2 p q) := by
  obtain ⟨a0, a1, -, -, -, -, -, -, e0, e1⟩ := idx1 t
  funext a; apply Fin.ext
  match a with
  | ⟨0, _⟩ => show win1_0.index t (0 : Fin 2) * 2000 + 1 * p.val = win1_4.index t (0 : Fin 2) * 2000 + 1 * p.val; omega
  | ⟨1, _⟩ => show win1_0.index t (1 : Fin 2) * 128 + 1 * q.val = win1_4.index t (1 : Fin 2) * 128 + 1 * q.val; omega

/-- The transformed input's block sits where the output's does. -/
theorem emb1_1 (t : Fin cfg1.N) (p : Fin 2000) (q : Fin 128) :
    (((cfg1.win 1).blk t).view.emb (ix2 p q) : S100000x128.Idx) = ((cfg1.win 4).blk t).view.emb (ix2 p q) := by
  obtain ⟨-, -, a0, a1, -, -, -, -, e0, e1⟩ := idx1 t
  funext a; apply Fin.ext
  match a with
  | ⟨0, _⟩ => show win1_1.index t (0 : Fin 2) * 2000 + 1 * p.val = win1_4.index t (0 : Fin 2) * 2000 + 1 * p.val; omega
  | ⟨1, _⟩ => show win1_1.index t (1 : Fin 2) * 128 + 1 * q.val = win1_4.index t (1 : Fin 2) * 128 + 1 * q.val; omega

/-- The self-loop column's block holds the same rows as the output's. -/
theorem emb2_1 (t : Fin cfg1.N) (p : Fin 2000) (q : Fin 128) :
    (((cfg1.win 2).blk t).view.emb (ix2 p (0 : Fin 1)) : S100000x1.Idx)
      = ix2 ((((cfg1.win 4).blk t).view.emb (ix2 p q) : S100000x128.Idx) 0) (0 : Fin 1) := by
  obtain ⟨-, -, -, -, a0, a1, -, -, e0, e1⟩ := idx1 t
  funext a; apply Fin.ext
  match a with
  | ⟨0, _⟩ => show win1_2.index t (0 : Fin 2) * 2000 + 1 * p.val = win1_4.index t (0 : Fin 2) * 2000 + 1 * p.val; omega
  | ⟨1, _⟩ => show win1_2.index t (1 : Fin 2) * 1 + 1 * 0 = 0; omega

/-- The bias row's block is the whole row: its column is the output's. -/
theorem emb3_1 (t : Fin cfg1.N) (p : Fin 2000) (q : Fin 128) :
    (((cfg1.win 3).blk t).view.emb (ix2 (0 : Fin 1) q) : S1x128.Idx)
      = ix2 (0 : Fin 1) ((((cfg1.win 4).blk t).view.emb (ix2 p q) : S100000x128.Idx) 1) := by
  obtain ⟨-, -, -, -, -, -, a0, a1, e0, e1⟩ := idx1 t
  funext a; apply Fin.ext
  match a with
  | ⟨0, _⟩ => show win1_3.index t (0 : Fin 2) * 1 + 1 * 0 = 0; omega
  | ⟨1, _⟩ => show win1_3.index t (1 : Fin 2) * 128 + 1 * q.val = win1_4.index t (1 : Fin 2) * 128 + 1 * q.val; omega

variable (V : (c : Dev nD) → (b : Ref sig .tc) → Buf (Elt Ideal) ((c : Thread nD τ).loc b))

/-! ## Region 1: what each point writes back, and the array after all write-backs -/

/-- The body at an entry of a block whose inputs are read off four arrays at the matching places is the rectified
    combination of the arrays at the entry's place. -/
theorem relu_block1 (A0 A1 : FVec Ideal ⟨2, ![100000, 128]⟩ .f32) (A2 : FVec Ideal ⟨2, ![100000, 1]⟩ .f32)
    (A3 : FVec Ideal ⟨2, ![1, 128]⟩ .f32)
    (x0 x1 : Vec Ideal S2000x128 .f32) (x2 : Vec Ideal S2000x1 .f32) (x3 : Vec Ideal S1x128 .f32)
    (p : Fin 2000) (q : Fin 128) (i : (⟨2, ![100000, 128]⟩ : Shape).Idx)
    (h0 : x0 (ix2 p q) = A0 i) (h1 : x1 (ix2 p q) = A1 i)
    (h2 : x2 (ix2 p (0 : Fin 1)) = A2 (ix2 (i 0) (0 : Fin 1))) (h3 : x3 (ix2 (0 : Fin 1) q) = A3 (ix2 (0 : Fin 1) (i 1))) :
    k1_pay1 (F := Ideal) x0 x1 x2 x3 (ix2 p q) = Cert.Gcn.relu (Cert.Gcn.combine A0 A1 A2 A3) i := by
  rw [Cert.KernelIdeal.CombinePayload.k1_pay1_apply, h0, h1, h2, h3]
  rfl

/-- What point `t` writes back is block `t` of the rectified combination of the arrays the region found. -/
theorem flushed1_eq (c : Dev nD) (t : Fin cfg1.N) :
    (dat1 (F := Ideal) V c).flushed 4 t = ((cfg1.win 4).blk t).view.read (Elt Ideal)
      (Cert.Gcn.relu (Cert.Gcn.combine (M := 100000) (N := 128) (V c main_v45) (V c main_v32) (V c main_v46) (V c main_v47))) := by
  show (cfg1.win 4).cut (grid1.coords t) ((dat1 (F := Ideal) V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S1x128) zero_offsets]
  funext j
  obtain ⟨p, q, rfl⟩ : ∃ (p : Fin 2000) (q : Fin 128), j = ix2 p q := ⟨j 0, j 1, eq_ix2 j⟩
  refine relu_block1 (V c main_v45) (V c main_v32) (V c main_v46) (V c main_v47) _ _ _ _ p q (((cfg1.win 4).blk t).view.emb (ix2 p q)) ?_ ?_ ?_ ?_
  · show V c main_v45 (((cfg1.win 0).blk t).view.emb (ix2 p q)) = _
    exact congrArg (V c main_v45) (emb0_1 t p q)
  · show V c main_v32 (((cfg1.win 1).blk t).view.emb (ix2 p q)) = _
    exact congrArg (V c main_v32) (emb1_1 t p q)
  · show V c main_v46 (((cfg1.win 2).blk t).view.emb (ix2 p (0 : Fin 1))) = _
    exact congrArg (V c main_v46) (emb2_1 t p q)
  · show V c main_v47 (((cfg1.win 3).blk t).view.emb (ix2 (0 : Fin 1) q)) = _
    exact congrArg (V c main_v47) (emb3_1 t p q)

/-- The output array after all write-backs is the rectified combination of the four arrays the region found. -/
theorem relu1_final (c : Dev nD) :
    (dat1 (F := Ideal) V c).arrAt 4 cfg1.N = Cert.Gcn.relu (Cert.Gcn.combine (M := 100000) (N := 128) (V c main_v45) (V c main_v32) (V c main_v46) (V c main_v47)) :=
  (dat1 (F := Ideal) V c).arrAt_eq_of_cover 4 _ (fun t _ => flushed1_eq V c t) cover1

end Cert.KernelIdeal.RegionValue

end
-- ==== Proof.CombineRegion3.lean ====
/-
  The second hidden layer's combining region: its grid of 50 points, point t holding rows 2000·t … 2000·t + 1999 of the
  aggregated, the transformed and the self-loop arrays and the whole bias row, leaves in its output array the rectified
  combination of the four arrays it found at entry. Each point's write-back is that function's block; the blocks cover the
  array.
-/
import proofs.«107449_j45028437131723_1_alg».proof.Proof.Gen.KernelIdeal.Frame
import proofs.«107449_j45028437131723_1_alg».proof.Proof.LayerSpec
import proofs.«107449_j45028437131723_1_alg».proof.Proof.CombinePayload
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

open Cert.KernelIdeal.CombinePayload (zero_offsets)

/-! ## Region 3: the blocks' places in the arrays -/

/-- The block indices at a point, decided over the grid: the three row-blocked inputs and the output sit at row block
    `t`, column block 0; the bias row is always its one block. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every row block of the output is some point's. -/
theorem onto3 : ∀ q0 : Fin 50, ∃ t : Fin cfg3.N, win3_4.index t = ![q0.val, 0] :=
  (by decide +kernel : ∀ q0 : Fin 50, ∃ t : Fin grid3.N, win3_4.index t = ![q0.val, 0])

/-- An index of the output array is in point `t`'s block iff each coordinate is in the block's range on its axis. -/
theorem mem_blk3 (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v65).slice (win3_4.rect t)).set ↔ _
  rw [View.set_slice_whole, Rect.mem_set_unit]
  exact Iff.rfl

/-- Every entry of the output array is written back: row `r` by the point of row block `r / 2000`. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := onto3 ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- Where entry (p, q) of point `t`'s output block sits in the array: row 2000·t + p, column q. -/
theorem emb4_3 (t : Fin cfg3.N) (p : Fin 2000) (q : Fin 128) :
    ((((cfg3.win 4).blk t).view.emb (ix2 p q) : S100000x128.Idx) 0).val = t.val * 2000 + p.val
    ∧ ((((cfg3.win 4).blk t).view.emb (ix2 p q) : S100000x128.Idx) 1).val = q.val := by
  obtain ⟨-, -, -, -, -, -, -, -, e0, e1⟩ := idx3 t
  constructor
  · show win3_4.index t (0 : Fin 2) * 2000 + 1 * p.val = _; omega
  · show win3_4.index t (1 : Fin 2) * 128 + 1 * q.val = _; omega

/-- The aggregated input's block sits where the output's does. -/
theorem emb0_3 (t : Fin cfg3.N) (p : Fin 2000) (q : Fin 128) :
    (((cfg3.win 0).blk t).view.emb (ix2 p q) : S100000x128.Idx) = ((cfg3.win 4).blk t).view.emb (ix2 p q) := by
  obtain ⟨a0, a1, -, -, -, -, -, -, e0, e1⟩ := idx3 t
  funext a; apply Fin.ext
  match a with
  | ⟨0, _⟩ => show win3_0.index t (0 : Fin 2) * 2000 + 1 * p.val = win3_4.index t (0 : Fin 2) * 2000 + 1 * p.val; omega
  | ⟨1, _⟩ => show win3_0.index t (1 : Fin 2) * 128 + 1 * q.val = win3_4.index t (1 : Fin 2) * 128 + 1 * q.val; omega

/-- The transformed input's block sits where the output's does. -/
theorem emb1_3 (t : Fin cfg3.N) (p : Fin 2000) (q : Fin 128) :
    (((cfg3.win 1).blk t).view.emb (ix2 p q) : S100000x128.Idx) = ((cfg3.win 4).blk t).view.emb (ix2 p q) := by
  obtain ⟨-, -, a0, a1, -, -, -, -, e0, e1⟩ := idx3 t
  funext a; apply Fin.ext
  match a with
  | ⟨0, _⟩ => show win3_1.index t (0 : Fin 2) * 2000 + 1 * p.val = win3_4.index t (0 : Fin 2) * 2000 + 1 * p.val; omega
  | ⟨1, _⟩ => show win3_1.index t (1 : Fin 2) * 128 + 1 * q.val = win3_4.index t (1 : Fin 2) * 128 + 1 * q.val; omega

/-- The self-loop column's block holds the same rows as the output's. -/
theorem emb2_3 (t : Fin cfg3.N) (p : Fin 2000) (q : Fin 128) :
    (((cfg3.win 2).blk t).view.emb (ix2 p (0 : Fin 1)) : S100000x1.Idx)
      = ix2 ((((cfg3.win 4).blk t).view.emb (ix2 p q) : S100000x128.Idx) 0) (0 : Fin 1) := by
  obtain ⟨-, -, -, -, a0, a1, -, -, e0, e1⟩ := idx3 t
  funext a; apply Fin.ext
  match a with
  | ⟨0, _⟩ => show win3_2.index t (0 : Fin 2) * 2000 + 1 * p.val = win3_4.index t (0 : Fin 2) * 2000 + 1 * p.val; omega
  | ⟨1, _⟩ => show win3_2.index t (1 : Fin 2) * 1 + 1 * 0 = 0; omega

/-- The bias row's block is the whole row: its column is the output's. -/
theorem emb3_3 (t : Fin cfg3.N) (p : Fin 2000) (q : Fin 128) :
    (((cfg3.win 3).blk t).view.emb (ix2 (0 : Fin 1) q) : S1x128.Idx)
      = ix2 (0 : Fin 1) ((((cfg3.win 4).blk t).view.emb (ix2 p q) : S100000x128.Idx) 1) := by
  obtain ⟨-, -, -, -, -, -, a0, a1, e0, e1⟩ := idx3 t
  funext a; apply Fin.ext
  match a with
  | ⟨0, _⟩ => show win3_3.index t (0 : Fin 2) * 1 + 1 * 0 = 0; omega
  | ⟨1, _⟩ => show win3_3.index t (1 : Fin 2) * 128 + 1 * q.val = win3_4.index t (1 : Fin 2) * 128 + 1 * q.val; omega

variable (V : (c : Dev nD) → (b : Ref sig .tc) → Buf (Elt Ideal) ((c : Thread nD τ).loc b))

/-! ## Region 3: what each point writes back, and the array after all write-backs -/

/-- The body at an entry of a block whose inputs are read off four arrays at the matching places is the rectified
    combination of the arrays at the entry's place. -/
theorem relu_block3 (A0 A1 : FVec Ideal ⟨2, ![100000, 128]⟩ .f32) (A2 : FVec Ideal ⟨2, ![100000, 1]⟩ .f32)
    (A3 : FVec Ideal ⟨2, ![1, 128]⟩ .f32)
    (x0 x1 : Vec Ideal S2000x128 .f32) (x2 : Vec Ideal S2000x1 .f32) (x3 : Vec Ideal S1x128 .f32)
    (p : Fin 2000) (q : Fin 128) (i : (⟨2, ![100000, 128]⟩ : Shape).Idx)
    (h0 : x0 (ix2 p q) = A0 i) (h1 : x1 (ix2 p q) = A1 i)
    (h2 : x2 (ix2 p (0 : Fin 1)) = A2 (ix2 (i 0) (0 : Fin 1))) (h3 : x3 (ix2 (0 : Fin 1) q) = A3 (ix2 (0 : Fin 1) (i 1))) :
    k3_pay1 (F := Ideal) x0 x1 x2 x3 (ix2 p q) = Cert.Gcn.relu (Cert.Gcn.combine A0 A1 A2 A3) i := by
  rw [Cert.KernelIdeal.CombinePayload.k3_pay1_apply, h0, h1, h2, h3]
  rfl

/-- What point `t` writes back is block `t` of the rectified combination of the arrays the region found. -/
theorem flushed3_eq (c : Dev nD) (t : Fin cfg3.N) :
    (dat3 (F := Ideal) V c).flushed 4 t = ((cfg3.win 4).blk t).view.read (Elt Ideal)
      (Cert.Gcn.relu (Cert.Gcn.combine (M := 100000) (N := 128) (V c main_v62) (V c main_v49) (V c main_v63) (V c main_v64))) := by
  show (cfg3.win 4).cut (grid3.coords t) ((dat3 (F := Ideal) V c).after 4 t) = _
  rw [after3_4]
  unfold out3_4
  rw [View.canon_unit_zero zero_offsets]
  simp only [View.ld_unit_zero (S := S2000x128) zero_offsets, View.ld_unit_zero (S := S2000x1) zero_offsets,
    View.ld_unit_zero (S := S1x128) zero_offsets]
  funext j
  obtain ⟨p, q, rfl⟩ : ∃ (p : Fin 2000) (q : Fin 128), j = ix2 p q := ⟨j 0, j 1, eq_ix2 j⟩
  refine relu_block3 (V c main_v62) (V c main_v49) (V c main_v63) (V c main_v64) _ _ _ _ p q (((cfg3.win 4).blk t).view.emb (ix2 p q)) ?_ ?_ ?_ ?_
  · show V c main_v62 (((cfg3.win 0).blk t).view.emb (ix2 p q)) = _
    exact congrArg (V c main_v62) (emb0_3 t p q)
  · show V c main_v49 (((cfg3.win 1).blk t).view.emb (ix2 p q)) = _
    exact congrArg (V c main_v49) (emb1_3 t p q)
  · show V c main_v63 (((cfg3.win 2).blk t).view.emb (ix2 p (0 : Fin 1))) = _
    exact congrArg (V c main_v63) (emb2_3 t p q)
  · show V c main_v64 (((cfg3.win 3).blk t).view.emb (ix2 (0 : Fin 1) q)) = _
    exact congrArg (V c main_v64) (emb3_3 t p q)

/-- The output array after all write-backs is the rectified combination of the four arrays the region found. -/
theorem relu3_final (c : Dev nD) :
    (dat3 (F := Ideal) V c).arrAt 4 cfg3.N = Cert.Gcn.relu (Cert.Gcn.combine (M := 100000) (N := 128) (V c main_v62) (V c main_v49) (V c main_v63) (V c main_v64)) :=
  (dat3 (F := Ideal) V c).arrAt_eq_of_cover 4 _ (fun t _ => flushed3_eq V c t) cover3

end Cert.KernelIdeal.RegionValue

end
-- ==== Proof.CombineRegion5.lean ====
/-
  The third hidden layer's combining region: its grid of 50 points, point t holding rows 2000·t … 2000·t + 1999 of the
  aggregated, the transformed and the self-loop arrays and the whole bias row, leaves in its output array the rectified
  combination of the four arrays it found at entry. Each point's write-back is that function's block; the blocks cover the
  array.
-/
import proofs.«107449_j45028437131723_1_alg».proof.Proof.Gen.KernelIdeal.Frame
import proofs.«107449_j45028437131723_1_alg».proof.Proof.LayerSpec
import proofs.«107449_j45028437131723_1_alg».proof.Proof.CombinePayload
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

open Cert.KernelIdeal.CombinePayload (zero_offsets)

/-! ## Region 5: the blocks' places in the arrays -/

/-- The block indices at a point, decided over the grid: the three row-blocked inputs and the output sit at row block
    `t`, column block 0; the bias row is always its one block. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Every row block of the output is some point's. -/
theorem onto5 : ∀ q0 : Fin 50, ∃ t : Fin cfg5.N, win5_4.index t = ![q0.val, 0] :=
  (by decide +kernel : ∀ q0 : Fin 50, ∃ t : Fin grid5.N, win5_4.index t = ![q0.val, 0])

/-- An index of the output array is in point `t`'s block iff each coordinate is in the block's range on its axis. -/
theorem mem_blk5 (t : Fin cfg5.N) (i : S100000x128.Idx) :
    i ∈ ((cfg5.win 4).blk t).view.set ↔ ∀ a : Fin 2, win5_4.index t a * S2000x128.size a ≤ (i a).val ∧ (i a).val < win5_4.index t a * S2000x128.size a + S2000x128.size a := by
  show i ∈ ((View.whole main_v82).slice (win5_4.rect t)).set ↔ _
  rw [View.set_slice_whole, Rect.mem_set_unit]
  exact Iff.rfl

/-- Every entry of the output array is written back: row `r` by the point of row block `r / 2000`. -/
theorem cover5 (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ := onto5 ⟨(i 0).val / 2000, by omega⟩
  have q0 : win5_4.index t (0 : Fin 2) = (i 0).val / 2000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 128 ≤ (i 1).val ∧ (i 1).val < win5_4.index t (1 : Fin 2) * 128 + 128; omega

/-- Where entry (p, q) of point `t`'s output block sits in the array: row 2000·t + p, column q. -/
theorem emb4_5 (t : Fin cfg5.N) (p : Fin 2000) (q : Fin 128) :
    ((((cfg5.win 4).blk t).view.emb (ix2 p q) : S100000x128.Idx) 0).val = t.val * 2000 + p.val
    ∧ ((((cfg5.win 4).blk t).view.emb (ix2 p q) : S100000x128.Idx) 1).val = q.val := by
  obtain ⟨-, -, -, -, -, -, -, -, e0, e1⟩ := idx5 t
  constructor
  · show win5_4.index t (0 : Fin 2) * 2000 + 1 * p.val = _; omega
  · show win5_4.index t (1 : Fin 2) * 128 + 1 * q.val = _; omega

/-- The aggregated input's block sits where the output's does. -/
theorem emb0_5 (t : Fin cfg5.N) (p : Fin 2000) (q : Fin 128) :
    (((cfg5.win 0).blk t).view.emb (ix2 p q) : S100000x128.Idx) = ((cfg5.win 4).blk t).view.emb (ix2 p q) := by
  obtain ⟨a0, a1, -, -, -, -, -, -, e0, e1⟩ := idx5 t
  funext a; apply Fin.ext
  match a with
  | ⟨0, _⟩ => show win5_0.index t (0 : Fin 2) * 2000 + 1 * p.val = win5_4.index t (0 : Fin 2) * 2000 + 1 * p.val; omega
  | ⟨1, _⟩ => show win5_0.index t (1 : Fin 2) * 128 + 1 * q.val = win5_4.index t (1 : Fin 2) * 128 + 1 * q.val; omega

/-- The transformed input's block sits where the output's does. -/
theorem emb1_5 (t : Fin cfg5.N) (p : Fin 2000) (q : Fin 128) :
    (((cfg5.win 1).blk t).view.emb (ix2 p q) : S100000x128.Idx) = ((cfg5.win 4).blk t).view.emb (ix2 p q) := by
  obtain ⟨-, -, a0, a1, -, -, -, -, e0, e1⟩ := idx5 t
  funext a; apply Fin.ext
  match a with
  | ⟨0, _⟩ => show win5_1.index t (0 : Fin 2) * 2000 + 1 * p.val = win5_4.index t (0 : Fin 2) * 2000 + 1 * p.val; omega
  | ⟨1, _⟩ => show win5_1.index t (1 : Fin 2) * 128 + 1 * q.val = win5_4.index t (1 : Fin 2) * 128 + 1 * q.val; omega

/-- The self-loop column's block holds the same rows as the output's. -/
theorem emb2_5 (t : Fin cfg5.N) (p : Fin 2000) (q : Fin 128) :
    (((cfg5.win 2).blk t).view.emb (ix2 p (0 : Fin 1)) : S100000x1.Idx)
      = ix2 ((((cfg5.win 4).blk t).view.emb (ix2 p q) : S100000x128.Idx) 0) (0 : Fin 1) := by
  obtain ⟨-, -, -, -, a0, a1, -, -, e0, e1⟩ := idx5 t
  funext a; apply Fin.ext
  match a with
  | ⟨0, _⟩ => show win5_2.index t (0 : Fin 2) * 2000 + 1 * p.val = win5_4.index t (0 : Fin 2) * 2000 + 1 * p.val; omega
  | ⟨1, _⟩ => show win5_2.index t (1 : Fin 2) * 1 + 1 * 0 = 0; omega

/-- The bias row's block is the whole row: its column is the output's. -/
theorem emb3_5 (t : Fin cfg5.N) (p : Fin 2000) (q : Fin 128) :
    (((cfg5.win 3).blk t).view.emb (ix2 (0 : Fin 1) q) : S1x128.Idx)
      = ix2 (0 : Fin 1) ((((cfg5.win 4).blk t).view.emb (ix2 p q) : S100000x128.Idx) 1) := by
  obtain ⟨-, -, -, -, -, -, a0, a1, e0, e1⟩ := idx5 t
  funext a; apply Fin.ext
  match a with
  | ⟨0, _⟩ => show win5_3.index t (0 : Fin 2) * 1 + 1 * 0 = 0; omega
  | ⟨1, _⟩ => show win5_3.index t (1 : Fin 2) * 128 + 1 * q.val = win5_4.index t (1 : Fin 2) * 128 + 1 * q.val; omega

variable (V : (c : Dev nD) → (b : Ref sig .tc) → Buf (Elt Ideal) ((c : Thread nD τ).loc b))

/-! ## Region 5: what each point writes back, and the array after all write-backs -/

/-- The body at an entry of a block whose inputs are read off four arrays at the matching places is the rectified
    combination of the arrays at the entry's place. -/
theorem relu_block5 (A0 A1 : FVec Ideal ⟨2, ![100000, 128]⟩ .f32) (A2 : FVec Ideal ⟨2, ![100000, 1]⟩ .f32)
    (A3 : FVec Ideal ⟨2, ![1, 128]⟩ .f32)
    (x0 x1 : Vec Ideal S2000x128 .f32) (x2 : Vec Ideal S2000x1 .f32) (x3 : Vec Ideal S1x128 .f32)
    (p : Fin 2000) (q : Fin 128) (i : (⟨2, ![100000, 128]⟩ : Shape).Idx)
    (h0 : x0 (ix2 p q) = A0 i) (h1 : x1 (ix2 p q) = A1 i)
    (h2 : x2 (ix2 p (0 : Fin 1)) = A2 (ix2 (i 0) (0 : Fin 1))) (h3 : x3 (ix2 (0 : Fin 1) q) = A3 (ix2 (0 : Fin 1) (i 1))) :
    k5_pay1 (F := Ideal) x0 x1 x2 x3 (ix2 p q) = Cert.Gcn.relu (Cert.Gcn.combine A0 A1 A2 A3) i := by
  rw [Cert.KernelIdeal.CombinePayload.k5_pay1_apply, h0, h1, h2, h3]
  rfl

/-- What point `t` writes back is block `t` of the rectified combination of the arrays the region found. -/
theorem flushed5_eq (c : Dev nD) (t : Fin cfg5.N) :
    (dat5 (F := Ideal) V c).flushed 4 t = ((cfg5.win 4).blk t).view.read (Elt Ideal)
      (Cert.Gcn.relu (Cert.Gcn.combine (M := 100000) (N := 128) (V c main_v79) (V c main_v66) (V c main_v80) (V c main_v81))) := by
  show (cfg5.win 4).cut (grid5.coords t) ((dat5 (F := Ideal) V c).after 4 t) = _
  rw [after5_4]
  unfold out5_4
  rw [View.canon_unit_zero zero_offsets]
  simp only [View.ld_unit_zero (S := S2000x128) zero_offsets, View.ld_unit_zero (S := S2000x1) zero_offsets,
    View.ld_unit_zero (S := S1x128) zero_offsets]
  funext j
  obtain ⟨p, q, rfl⟩ : ∃ (p : Fin 2000) (q : Fin 128), j = ix2 p q := ⟨j 0, j 1, eq_ix2 j⟩
  refine relu_block5 (V c main_v79) (V c main_v66) (V c main_v80) (V c main_v81) _ _ _ _ p q (((cfg5.win 4).blk t).view.emb (ix2 p q)) ?_ ?_ ?_ ?_
  · show V c main_v79 (((cfg5.win 0).blk t).view.emb (ix2 p q)) = _
    exact congrArg (V c main_v79) (emb0_5 t p q)
  · show V c main_v66 (((cfg5.win 1).blk t).view.emb (ix2 p q)) = _
    exact congrArg (V c main_v66) (emb1_5 t p q)
  · show V c main_v80 (((cfg5.win 2).blk t).view.emb (ix2 p (0 : Fin 1))) = _
    exact congrArg (V c main_v80) (emb2_5 t p q)
  · show V c main_v81 (((cfg5.win 3).blk t).view.emb (ix2 (0 : Fin 1) q)) = _
    exact congrArg (V c main_v81) (emb3_5 t p q)

/-- The output array after all write-backs is the rectified combination of the four arrays the region found. -/
theorem relu5_final (c : Dev nD) :
    (dat5 (F := Ideal) V c).arrAt 4 cfg5.N = Cert.Gcn.relu (Cert.Gcn.combine (M := 100000) (N := 128) (V c main_v79) (V c main_v66) (V c main_v80) (V c main_v81)) :=
  (dat5 (F := Ideal) V c).arrAt_eq_of_cover 4 _ (fun t _ => flushed5_eq V c t) cover5

end Cert.KernelIdeal.RegionValue

end
-- ==== Proof.CombineRegion7.lean ====
/-
  The output layer's combining region: its grid of 50 points, point t holding rows 2000·t … 2000·t + 1999 (all 40 columns)
  of the aggregated, the transformed and the self-loop arrays and the whole bias row, leaves in its output array the
  row-wise softmax of the combination of the four arrays it found at entry. Each point's write-back is that function's
  block, because a block holds whole rows; the blocks cover the array.
-/
import proofs.«107449_j45028437131723_1_alg».proof.Proof.Gen.KernelIdeal.Frame
import proofs.«107449_j45028437131723_1_alg».proof.Proof.LayerSpec
import proofs.«107449_j45028437131723_1_alg».proof.Proof.CombinePayload
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

open Cert.KernelIdeal.CombinePayload (zero_offsets)

/-! ## Region 7: the blocks' places in the arrays -/

/-- The block indices at a point, decided over the grid: the three row-blocked inputs and the output sit at row block
    `t`, column block 0; the bias row is always its one block. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Every row block of the output is some point's. -/
theorem onto7 : ∀ q0 : Fin 50, ∃ t : Fin cfg7.N, win7_4.index t = ![q0.val, 0] :=
  (by decide +kernel : ∀ q0 : Fin 50, ∃ t : Fin grid7.N, win7_4.index t = ![q0.val, 0])

/-- An index of the output array is in point `t`'s block iff each coordinate is in the block's range on its axis. -/
theorem mem_blk7 (t : Fin cfg7.N) (i : S100000x40.Idx) :
    i ∈ ((cfg7.win 4).blk t).view.set ↔ ∀ a : Fin 2, win7_4.index t a * S2000x40.size a ≤ (i a).val ∧ (i a).val < win7_4.index t a * S2000x40.size a + S2000x40.size a := by
  show i ∈ ((View.whole main_v99).slice (win7_4.rect t)).set ↔ _
  rw [View.set_slice_whole, Rect.mem_set_unit]
  exact Iff.rfl

/-- Every entry of the output array is written back: row `r` by the point of row block `r / 2000`. -/
theorem cover7 (i : S100000x40.Idx) :
    ∃ t : Fin cfg7.N, (cfg7.win 4).flush t = true ∧ i ∈ ((cfg7.win 4).blk t).view.set := by
  have hi0 : (i 0).val < 100000 := (i 0).isLt
  have hi1 : (i 1).val < 40 := (i 1).isLt
  obtain ⟨t, ht⟩ := onto7 ⟨(i 0).val / 2000, by omega⟩
  have q0 : win7_4.index t (0 : Fin 2) = (i 0).val / 2000 := congrFun ht 0
  have q1 : win7_4.index t (1 : Fin 2) = 0 := congrFun ht 1
  refine ⟨t, flush7_4 t, ?_⟩
  rw [mem_blk7]
  intro a
  match a with
  | ⟨0, _⟩ => show win7_4.index t (0 : Fin 2) * 2000 ≤ (i 0).val ∧ (i 0).val < win7_4.index t (0 : Fin 2) * 2000 + 2000; omega
  | ⟨1, _⟩ => show win7_4.index t (1 : Fin 2) * 40 ≤ (i 1).val ∧ (i 1).val < win7_4.index t (1 : Fin 2) * 40 + 40; omega

/-- Where entry (p, q) of point `t`'s output block sits in the array: row 2000·t + p, column q. -/
theorem emb4_7 (t : Fin cfg7.N) (p : Fin 2000) (q : Fin 40) :
    ((((cfg7.win 4).blk t).view.emb (ix2 p q) : S100000x40.Idx) 0).val = t.val * 2000 + p.val
    ∧ ((((cfg7.win 4).blk t).view.emb (ix2 p q) : S100000x40.Idx) 1).val = q.val := by
  obtain ⟨-, -, -, -, -, -, -, -, e0, e1⟩ := idx7 t
  constructor
  · show win7_4.index t (0 : Fin 2) * 2000 + 1 * p.val = _; omega
  · show win7_4.index t (1 : Fin 2) * 40 + 1 * q.val = _; omega

/-- The aggregated input's block sits where the output's does. -/
theorem emb0_7 (t : Fin cfg7.N) (p : Fin 2000) (q : Fin 40) :
    (((cfg7.win 0).blk t).view.emb (ix2 p q) : S100000x40.Idx) = ((cfg7.win 4).blk t).view.emb (ix2 p q) := by
  obtain ⟨a0, a1, -, -, -, -, -, -, e0, e1⟩ := idx7 t
  funext a; apply Fin.ext
  match a with
  | ⟨0, _⟩ => show win7_0.index t (0 : Fin 2) * 2000 + 1 * p.val = win7_4.index t (0 : Fin 2) * 2000 + 1 * p.val; omega
  | ⟨1, _⟩ => show win7_0.index t (1 : Fin 2) * 40 + 1 * q.val = win7_4.index t (1 : Fin 2) * 40 + 1 * q.val; omega

/-- The transformed input's block sits where the output's does. -/
theorem emb1_7 (t : Fin cfg7.N) (p : Fin 2000) (q : Fin 40) :
    (((cfg7.win 1).blk t).view.emb (ix2 p q) : S100000x40.Idx) = ((cfg7.win 4).blk t).view.emb (ix2 p q) := by
  obtain ⟨-, -, a0, a1, -, -, -, -, e0, e1⟩ := idx7 t
  funext a; apply Fin.ext
  match a with
  | ⟨0, _⟩ => show win7_1.index t (0 : Fin 2) * 2000 + 1 * p.val = win7_4.index t (0 : Fin 2) * 2000 + 1 * p.val; omega
  | ⟨1, _⟩ => show win7_1.index t (1 : Fin 2) * 40 + 1 * q.val = win7_4.index t (1 : Fin 2) * 40 + 1 * q.val; omega

/-- The self-loop column's block holds the same rows as the output's. -/
theorem emb2_7 (t : Fin cfg7.N) (p : Fin 2000) (q : Fin 40) :
    (((cfg7.win 2).blk t).view.emb (ix2 p (0 : Fin 1)) : S100000x1.Idx)
      = ix2 ((((cfg7.win 4).blk t).view.emb (ix2 p q) : S100000x40.Idx) 0) (0 : Fin 1) := by
  obtain ⟨-, -, -, -, a0, a1, -, -, e0, e1⟩ := idx7 t
  funext a; apply Fin.ext
  match a with
  | ⟨0, _⟩ => show win7_2.index t (0 : Fin 2) * 2000 + 1 * p.val = win7_4.index t (0 : Fin 2) * 2000 + 1 * p.val; omega
  | ⟨1, _⟩ => show win7_2.index t (1 : Fin 2) * 1 + 1 * 0 = 0; omega

/-- The bias row's block is the whole row: its column is the output's. -/
theorem emb3_7 (t : Fin cfg7.N) (p : Fin 2000) (q : Fin 40) :
    (((cfg7.win 3).blk t).view.emb (ix2 (0 : Fin 1) q) : S1x40.Idx)
      = ix2 (0 : Fin 1) ((((cfg7.win 4).blk t).view.emb (ix2 p q) : S100000x40.Idx) 1) := by
  obtain ⟨-, -, -, -, -, -, a0, a1, e0, e1⟩ := idx7 t
  funext a; apply Fin.ext
  match a with
  | ⟨0, _⟩ => show win7_3.index t (0 : Fin 2) * 1 + 1 * 0 = 0; omega
  | ⟨1, _⟩ => show win7_3.index t (1 : Fin 2) * 40 + 1 * q.val = win7_4.index t (1 : Fin 2) * 40 + 1 * q.val; omega

/-- Entry (p, k) of point `t`'s output block sits in the array in the row of the block's entry (p, q), at column k. -/
theorem emb4row_7 (t : Fin cfg7.N) (p : Fin 2000) (q k : Fin 40) :
    (((cfg7.win 4).blk t).view.emb (ix2 p k) : S100000x40.Idx)
      = ix2 ((((cfg7.win 4).blk t).view.emb (ix2 p q) : S100000x40.Idx) 0) k := by
  obtain ⟨-, -, -, -, -, -, -, -, e0, e1⟩ := idx7 t
  funext a; apply Fin.ext
  match a with
  | ⟨0, _⟩ => show win7_4.index t (0 : Fin 2) * 2000 + 1 * p.val = win7_4.index t (0 : Fin 2) * 2000 + 1 * p.val; rfl
  | ⟨1, _⟩ => show win7_4.index t (1 : Fin 2) * 40 + 1 * k.val = k.val; omega

variable (V : (c : Dev nD) → (b : Ref sig .tc) → Buf (Elt Ideal) ((c : Thread nD τ).loc b))

/-! ## Region 7: what each point writes back, and the array after all write-backs -/

/-- What point `t` writes back is block `t` of the row-wise softmax of the combination of the arrays the region found:
    a block holds whole rows, so the softmax of the block's row p is the softmax of the arrays' row 2000·t + p. -/
theorem flushed7_eq (c : Dev nD) (t : Fin cfg7.N) :
    (dat7 (F := Ideal) V c).flushed 4 t = ((cfg7.win 4).blk t).view.read (Elt Ideal)
      (Cert.Gcn.softmax (Cert.Gcn.combine (M := 100000) (N := 40) (V c main_v96) (V c main_v83) (V c main_v97) (V c main_v98))) := by
  show (cfg7.win 4).cut (grid7.coords t) ((dat7 (F := Ideal) V c).after 4 t) = _
  rw [after7_4]
  unfold out7_4
  rw [View.canon_unit_zero zero_offsets]
  simp only [View.ld_unit_zero (S := S2000x40) zero_offsets, View.ld_unit_zero (S := S2000x1) zero_offsets,
    View.ld_unit_zero (S := S1x40) zero_offsets]
  funext j
  obtain ⟨p, q, rfl⟩ : ∃ (p : Fin 2000) (q : Fin 40), j = ix2 p q := ⟨j 0, j 1, eq_ix2 j⟩
  show k7_pay1 (F := Ideal) (iblk7 V c 0 t) (iblk7 V c 1 t) (iblk7 V c 2 t) (iblk7 V c 3 t) (ix2 p q)
    = Cert.Gcn.softmax (Cert.Gcn.combine (M := 100000) (N := 40) (V c main_v96) (V c main_v83) (V c main_v97) (V c main_v98)) (((cfg7.win 4).blk t).view.emb (ix2 p q))
  refine ((congrFun (Cert.KernelIdeal.CombinePayload.k7_pay1_eq _ _ _ _) (ix2 p q)).trans
    (Cert.KernelIdeal.CombinePayload.softmax_row_congr _ (Cert.Gcn.combine (M := 100000) (N := 40) (V c main_v96) (V c main_v83) (V c main_v97) (V c main_v98)) p
      ((((cfg7.win 4).blk t).view.emb (ix2 p q) : S100000x40.Idx) 0) q fun k => ?_)).trans
    (congrArg (Cert.Gcn.softmax (Cert.Gcn.combine (M := 100000) (N := 40) (V c main_v96) (V c main_v83) (V c main_v97) (V c main_v98))) (emb4row_7 t p q q).symm)
  refine (Cert.KernelIdeal.CombinePayload.combine_block (V c main_v96) (V c main_v83) (V c main_v97) (V c main_v98) _ _ _ _ p k
    (((cfg7.win 4).blk t).view.emb (ix2 p k)) ?_ ?_ ?_ ?_).trans
    (congrArg (Cert.Gcn.combine (M := 100000) (N := 40) (V c main_v96) (V c main_v83) (V c main_v97) (V c main_v98)) (emb4row_7 t p q k))
  · show V c main_v96 (((cfg7.win 0).blk t).view.emb (ix2 p k)) = _
    exact congrArg (V c main_v96) (emb0_7 t p k)
  · show V c main_v83 (((cfg7.win 1).blk t).view.emb (ix2 p k)) = _
    exact congrArg (V c main_v83) (emb1_7 t p k)
  · show V c main_v97 (((cfg7.win 2).blk t).view.emb (ix2 p (0 : Fin 1))) = _
    exact congrArg (V c main_v97) (emb2_7 t p k)
  · show V c main_v98 (((cfg7.win 3).blk t).view.emb (ix2 (0 : Fin 1) k)) = _
    exact congrArg (V c main_v98) (emb3_7 t p k)

/-- The output array after all write-backs is the row-wise softmax of the combination of the four arrays the region found. -/
theorem softmax7_final (c : Dev nD) :
    (dat7 (F := Ideal) V c).arrAt 4 cfg7.N = Cert.Gcn.softmax (Cert.Gcn.combine (M := 100000) (N := 40) (V c main_v96) (V c main_v83) (V c main_v97) (V c main_v98)) :=
  (dat7 (F := Ideal) V c).arrAt_eq_of_cover 4 _ (fun t _ => flushed7_eq V c t) cover7

end Cert.KernelIdeal.RegionValue

end
-- ==== Proof.CombineRegions.lean ====
/-
  The four combining regions of the network, each read as one function of the arrays it found at entry: the three hidden
  layers' regions leave the rectified combination, the output layer's the row-wise softmax of the combination.
-/
import proofs.«107449_j45028437131723_1_alg».proof.Proof.CombineRegion1
import proofs.«107449_j45028437131723_1_alg».proof.Proof.CombineRegion3
import proofs.«107449_j45028437131723_1_alg».proof.Proof.CombineRegion5
import proofs.«107449_j45028437131723_1_alg».proof.Proof.CombineRegion7
-- ==== Proof.Compose.lean ====
/-
  The idealized kernel's result as one function of its arguments. Walking @main's thirteen segments
  from the launch: the graph's words and weights come from the edge list once; each matmul region
  leaves the dense transform of the array before it; each stretch of host operations gathers, scales
  and sums the transformed rows over the edges; each combine region adds the self-loop term and the
  bias and applies the nonlinearity. Composed, the result buffer holds the four-layer network
  `network` of the arguments.
-/
import proofs.«107449_j45028437131723_1_alg».proof.Proof.Carry
import proofs.«107449_j45028437131723_1_alg».proof.Proof.Network
import proofs.«107449_j45028437131723_1_alg».proof.Proof.DenseRegions
import proofs.«107449_j45028437131723_1_alg».proof.Proof.CombineRegions

set_option maxRecDepth 16384

noncomputable section

namespace Cert.KernelIdeal.Spine

open Idealize.ShloMosaic Idealize.ShloMosaic.TcCoe Idealize.SL.Sem Idealize.ShloMosaic.StableHlo
open Cert.KernelIdeal Cert.KernelIdeal.Gen Cert.KernelIdeal.Graph Cert.KernelIdeal.RegionValue

variable (m : (ℓ : Loc nD τ sig) → Buf (Elt Ideal) ℓ) (ρ : Dev nD → PrngReg)

/-! ## Segment by segment -/

/-- Region 0 leaves the dense transform of the node features. -/
theorem W2_v32 (c : Dev nD) : W2 m ρ c (Proc.devRef .tc main_v32)
    = Cert.Gcn.dense (M := 100000) (K := 500) (N := 128) (m ((c : Thread nD τ).loc main_arg0)) (m ((c : Thread nD τ).loc main_arg2)) := by
  refine (W2_arr m ρ c 2).trans ((dense0_final (V1 m ρ) c).trans ?_)
  show Cert.Gcn.dense (M := 100000) (K := 500) (N := 128) (W1 m ρ c (Proc.devRef .tc main_arg0)) (W1 m ρ c (Proc.devRef .tc main_arg2)) = _
  rw [W1_arg0, W1_arg2]

/-- Region 1 leaves the layer's activations. -/
theorem W4_v48 (c : Dev nD) : W4 m ρ c (Proc.devRef .tc main_v48) = act1 m c := by
  refine (W4_arr m ρ c 4).trans ((relu1_final (V3 m ρ) c).trans ?_)
  show Cert.Gcn.relu (Cert.Gcn.combine (M := 100000) (N := 128) (W3 m ρ c (Proc.devRef .tc main_v45)) (W3 m ρ c (Proc.devRef .tc main_v32)) (W3 m ρ c (Proc.devRef .tc main_v46)) (W3 m ρ c (Proc.devRef .tc main_v47))) = _
  rw [W3_v45, W3_v32, W3_v46, W3_v47,
    carry2_v1, carry2_v3, carry2_v30, carry2_v31, carry2_arg3,
    W1_v1, W1_v3, W1_v30, W1_v31, W1_arg3, W2_v32]
  rfl

/-- Region 2 leaves the dense transform of the previous layer's activations. -/
theorem W5_v49 (c : Dev nD) : W5 m ρ c (Proc.devRef .tc main_v49)
    = Cert.Gcn.dense (M := 100000) (K := 128) (N := 128) (act1 m c) (m ((c : Thread nD τ).loc main_arg4)) := by
  refine (W5_arr m ρ c 2).trans ((dense2_final (V4 m ρ) c).trans ?_)
  show Cert.Gcn.dense (M := 100000) (K := 128) (N := 128) (W4 m ρ c (Proc.devRef .tc main_v48)) (W4 m ρ c (Proc.devRef .tc main_arg4)) = _
  rw [W4_v48, carry4_arg4, W1_arg4]

/-- Region 3 leaves the layer's activations. -/
theorem W7_v65 (c : Dev nD) : W7 m ρ c (Proc.devRef .tc main_v65) = act2 m c := by
  refine (W7_arr m ρ c 4).trans ((relu3_final (V6 m ρ) c).trans ?_)
  show Cert.Gcn.relu (Cert.Gcn.combine (M := 100000) (N := 128) (W6 m ρ c (Proc.devRef .tc main_v62)) (W6 m ρ c (Proc.devRef .tc main_v49)) (W6 m ρ c (Proc.devRef .tc main_v63)) (W6 m ρ c (Proc.devRef .tc main_v64))) = _
  rw [W6_v62, W6_v49, W6_v63, W6_v64,
    carry5_v1, carry5_v3, carry5_v30, carry5_v31, carry5_arg5,
    W1_v1, W1_v3, W1_v30, W1_v31, W1_arg5, W5_v49]
  rfl

/-- Region 4 leaves the dense transform of the previous layer's activations. -/
theorem W8_v66 (c : Dev nD) : W8 m ρ c (Proc.devRef .tc main_v66)
    = Cert.Gcn.dense (M := 100000) (K := 128) (N := 128) (act2 m c) (m ((c : Thread nD τ).loc main_arg6)) := by
  refine (W8_arr m ρ c 2).trans ((dense4_final (V7 m ρ) c).trans ?_)
  show Cert.Gcn.dense (M := 100000) (K := 128) (N := 128) (W7 m ρ c (Proc.devRef .tc main_v65)) (W7 m ρ c (Proc.devRef .tc main_arg6)) = _
  rw [W7_v65, carry7_arg6, W1_arg6]

/-- Region 5 leaves the layer's activations. -/
theorem W10_v82 (c : Dev nD) : W10 m ρ c (Proc.devRef .tc main_v82) = act3 m c := by
  refine (W10_arr m ρ c 4).trans ((relu5_final (V9 m ρ) c).trans ?_)
  show Cert.Gcn.relu (Cert.Gcn.combine (M := 100000) (N := 128) (W9 m ρ c (Proc.devRef .tc main_v79)) (W9 m ρ c (Proc.devRef .tc main_v66)) (W9 m ρ c (Proc.devRef .tc main_v80)) (W9 m ρ c (Proc.devRef .tc main_v81))) = _
  rw [W9_v79, W9_v66, W9_v80, W9_v81,
    carry8_v1, carry8_v3, carry8_v30, carry8_v31, carry8_arg7,
    W1_v1, W1_v3, W1_v30, W1_v31, W1_arg7, W8_v66]
  rfl

/-- Region 6 leaves the dense transform of the previous layer's activations. -/
theorem W11_v83 (c : Dev nD) : W11 m ρ c (Proc.devRef .tc main_v83)
    = Cert.Gcn.dense (M := 100000) (K := 128) (N := 40) (act3 m c) (m ((c : Thread nD τ).loc main_arg8)) := by
  refine (W11_arr m ρ c 2).trans ((dense6_final (V10 m ρ) c).trans ?_)
  show Cert.Gcn.dense (M := 100000) (K := 128) (N := 40) (W10 m ρ c (Proc.devRef .tc main_v82)) (W10 m ρ c (Proc.devRef .tc main_arg8)) = _
  rw [W10_v82, carry10_arg8, W1_arg8]

/-- Region 7 leaves the network's output. -/
theorem W13_v99 (c : Dev nD) : W13 m ρ c (Proc.devRef .tc main_v99) = network m c := by
  refine (W13_arr m ρ c 4).trans ((softmax7_final (V12 m ρ) c).trans ?_)
  show Cert.Gcn.softmax (Cert.Gcn.combine (M := 100000) (N := 40) (W12 m ρ c (Proc.devRef .tc main_v96)) (W12 m ρ c (Proc.devRef .tc main_v83)) (W12 m ρ c (Proc.devRef .tc main_v97)) (W12 m ρ c (Proc.devRef .tc main_v98))) = _
  rw [W12_v96, W12_v83, W12_v97, W12_v98,
    carry11_v1, carry11_v3, carry11_v30, carry11_v31, carry11_arg9,
    W1_v1, W1_v3, W1_v30, W1_v31, W1_arg9, W11_v83]
  rfl

end Cert.KernelIdeal.Spine

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.RefOps.lean ====
/-
  The host operations of a graph-convolution layer, read as the layer's functions of whole arrays.

  Three facts about arbitrary arrays of the program's literal shapes, on the extended reals:
  a host matrix product with the plain dimension numbers is the dense transform; the chain
  "neighbours' sum + transformed row scaled by a broadcast column + broadcast bias row, then the larger of
  that and a broadcast zero" is the rectifier of the layer's combination; and the chain "row maximum from −∞,
  joined once more with −∞, subtracted, exponentiated, divided by the row sum of the exponentials" is the
  row-wise softmax.
-/
import proofs.«107449_j45028437131723_1_alg».proof.Proof.Gen.ReferenceIdeal
import proofs.«107449_j45028437131723_1_alg».proof.Proof.LayerSpec
import proofs.«107449_j45028437131723_1_alg».proof.Proof.LibPlainDot
import proofs.«107449_j45028437131723_1_alg».proof.Proof.LibBroadcastInDim
import proofs.«107449_j45028437131723_1_alg».proof.Proof.LibKeepdims
import Idealize.ShloMosaic.PureOps.Ideal.Laws
import Idealize.ShloMosaic.Lib.ValueIdx

set_option maxRecDepth 16384

noncomputable section

open scoped BigOperators

namespace Cert.ReferenceIdeal.RefValue

open Cert.ReferenceIdeal Cert.ReferenceIdeal.Gen Idealize.ShloMosaic Idealize.ShloMosaic.ValueIdx

/-- A host matrix product [100000, 500] · [500, 128] is the dense transform. -/
theorem dot500_eq_dense (A : FVec Ideal S100000x500 .f32) (B : FVec Ideal S500x128 .f32) :
    Host.dotGeneral dot_S100000x500_S500x128_S100000x128_1_0_0_1_n_n none A B = Cert.Gcn.dense A B := by
  funext i
  obtain ⟨p, q, rfl⟩ : ∃ (p : Fin 100000) (q : Fin 128), i = ix2 p q := ⟨i 0, i 1, eq_ix2 i⟩
  exact Cert.Lib.PlainDot.dotGeneral_plain_apply (M := 100000) (K := 500) (N := 128) none .single A B p q

/-- A host matrix product [100000, 128] · [128, 128] is the dense transform. -/
theorem dot128_eq_dense (A : FVec Ideal S100000x128 .f32) (B : FVec Ideal S128x128 .f32) :
    Host.dotGeneral dot_S100000x128_S128x128_S100000x128_1_0_0_1_n_n none A B = Cert.Gcn.dense A B := by
  funext i
  obtain ⟨p, q, rfl⟩ : ∃ (p : Fin 100000) (q : Fin 128), i = ix2 p q := ⟨i 0, i 1, eq_ix2 i⟩
  exact Cert.Lib.PlainDot.dotGeneral_plain_apply (M := 100000) (K := 128) (N := 128) none .single A B p q

/-- A host matrix product [100000, 128] · [128, 40] is the dense transform. -/
theorem dot40_eq_dense (A : FVec Ideal S100000x128 .f32) (B : FVec Ideal S128x40 .f32) :
    Host.dotGeneral dot_S100000x128_S128x40_S100000x40_1_0_0_1_n_n none A B = Cert.Gcn.dense A B := by
  funext i
  obtain ⟨p, q, rfl⟩ : ∃ (p : Fin 100000) (q : Fin 40), i = ix2 p q := ⟨i 0, i 1, eq_ix2 i⟩
  exact Cert.Lib.PlainDot.dotGeneral_plain_apply (M := 100000) (K := 128) (N := 40) none .single A B p q

/-- The larger of an array and a broadcast zero is the rectifier. -/
theorem max_zero128_eq_relu (x : FVec Ideal S100000x128 .f32) :
    maximumf x (broadcastInDim S100000x128 ![] bcast_S_S100000x128 (constant S_ .f32 0x00000000#32)) = Cert.Gcn.relu x := by
  funext i
  rw [maximumf_apply, Cert.Lib.BroadcastInDim.scalar_apply]
  rfl

/-- Neighbours' sum, plus the transformed row times the broadcast self-loop column, plus the broadcast bias row, is
    the layer's combination (width 128). -/
theorem combine128_eq (agg hlin : FVec Ideal S100000x128 .f32) (col : FVec Ideal S100000x1 .f32) (row : FVec Ideal S1x128 .f32) :
    addf (addf agg (mulf hlin (broadcastInDim S100000x128 ![0, 1] bcast_S100000x1_S100000x128_0_1 col)))
        (broadcastInDim S100000x128 ![0, 1] bcast_S1x128_S100000x128_0_1 row)
      = Cert.Gcn.combine agg hlin col row := by
  funext i
  obtain ⟨p, q, rfl⟩ : ∃ (p : Fin 100000) (q : Fin 128), i = ix2 p q := ⟨i 0, i 1, eq_ix2 i⟩
  rw [addf_apply, addf_apply, mulf_apply, Cert.Lib.BroadcastInDim.col_lanes_apply, Cert.Lib.BroadcastInDim.row_rows_apply]
  rfl

/-- The same at width 40. -/
theorem combine40_eq (agg hlin : FVec Ideal S100000x40 .f32) (col : FVec Ideal S100000x1 .f32) (row : FVec Ideal S1x40 .f32) :
    addf (addf agg (mulf hlin (broadcastInDim S100000x40 ![0, 1] bcast_S100000x1_S100000x40_0_1 col)))
        (broadcastInDim S100000x40 ![0, 1] bcast_S1x40_S100000x40_0_1 row)
      = Cert.Gcn.combine agg hlin col row := by
  funext i
  obtain ⟨p, q, rfl⟩ : ∃ (p : Fin 100000) (q : Fin 40), i = ix2 p q := ⟨i 0, i 1, eq_ix2 i⟩
  rw [addf_apply, addf_apply, mulf_apply, Cert.Lib.BroadcastInDim.col_lanes_apply, Cert.Lib.BroadcastInDim.row_rows_apply]
  rfl

/-- The hidden layer's tail: the rectifier of the combination. -/
theorem relu_combine128_eq (agg hlin : FVec Ideal S100000x128 .f32) (col : FVec Ideal S100000x1 .f32) (row : FVec Ideal S1x128 .f32) :
    maximumf (addf (addf agg (mulf hlin (broadcastInDim S100000x128 ![0, 1] bcast_S100000x1_S100000x128_0_1 col)))
        (broadcastInDim S100000x128 ![0, 1] bcast_S1x128_S100000x128_0_1 row))
      (broadcastInDim S100000x128 ![] bcast_S_S100000x128 (constant S_ .f32 0x00000000#32))
      = Cert.Gcn.relu (Cert.Gcn.combine agg hlin col row) := by
  rw [max_zero128_eq_relu, combine128_eq]

/-- The number the word of −∞ denotes is the least extended real: its join with any number is that number. -/
theorem max_negInf (y : Ideal .f32) : max (Ideal.ofBits .f32 0xFF800000#32) y = y := by
  simp [Ideal.ofBits, Ideal.ieee]

/-- The host's row maximum from −∞, joined once more with a broadcast −∞, is at row p the fold of max over the row. -/
theorem rowMax_eq (x : FVec Ideal S100000x40 .f32) (p : Fin 100000) :
    (maximumf (broadcastInDim S100000 ![] bcast_S_S100000 (constant S_ .f32 0xFF800000#32)) (Host.reduce FloatOps.maximumf x (constant S_ .f32 0xFF800000#32) reducesTo_S100000x40_S100000_d1 h_S_)) (ix1 p) = Cert.Gcn.rowMax x p := by
  have h : S100000x40.Reduces [1] S100000 := by decide
  rw [maximumf_apply, Cert.Lib.BroadcastInDim.scalar_apply, constant_apply, max_negInf,
    Host.reduce_eq_fold_single FloatOps.maximumf x _ reducesTo_S100000x40_S100000_d1 h h_S_]
  have hf : (x ∘ h.lift (ix1 p)) = fun k : Fin 40 => x (ix2 p k) :=
    funext fun k => congrArg x (Cert.Lib.Keepdims.lift_lastAxis h p k)
  exact congrArg (fun f => Finset.fold max (Ideal.ofBits .f32 0xFF800000#32) f (Finset.univ : Finset (Fin 40))) hf

/-- A host quotient read at an index. -/
theorem hostDivf_apply {s : Shape} (a b : FVec Ideal s .f32) (i : s.Idx) : Host.divf a b i = Ideal.div (a i) (b i) := rfl

/-- The exponential of an array shifted by a per-row number (a vector set as a column and spread over the lanes). -/
theorem expShift_apply (x : FVec Ideal S100000x40 .f32) (m : FVec Ideal S100000 .f32) (p : Fin 100000) (q : Fin 40) :
    (Host.exp (subf x (broadcastInDim S100000x40 ![0, 1] bcast_S100000x1_S100000x40_0_1 (broadcastInDim S100000x1 ![0] bcast_S100000_S100000x1_0 m)))) (ix2 p q) = Ideal.exp (x (ix2 p q) - m (ix1 p)) := by
  show Ideal.exp (x (ix2 p q) - (broadcastInDim S100000x40 ![0, 1] bcast_S100000x1_S100000x40_0_1 (broadcastInDim S100000x1 ![0] bcast_S100000_S100000x1_0 m)) (ix2 p q)) = _
  rw [Cert.Lib.BroadcastInDim.col_lanes_apply, Cert.Lib.BroadcastInDim.vec_col_apply]

/-- The host's row sum from zero, set as a column and spread over the lanes, is at (p, q) the sum of row p. -/
theorem rowSumBcast_apply (e : FVec Ideal S100000x40 .f32) (p : Fin 100000) (q : Fin 40) :
    (broadcastInDim S100000x40 ![0, 1] bcast_S100000x1_S100000x40_0_1 (broadcastInDim S100000x1 ![0] bcast_S100000_S100000x1_0 (Host.reduceAdd e (constant S_ .f32 0x00000000#32) reducesTo_S100000x40_S100000_d1 h_S_))) (ix2 p q) = ∑ k : Fin 40, e (ix2 p k) := by
  have h : S100000x40.Reduces [1] S100000 := by decide
  rw [Cert.Lib.BroadcastInDim.col_lanes_apply, Cert.Lib.BroadcastInDim.vec_col_apply]
  show Ideal.hostReduceAdd reducesTo_S100000x40_S100000_d1 e (Ideal.ofBits .f32 0x00000000#32) (ix1 p) = _
  rw [Ideal.hostReduceAdd_single reducesTo_S100000x40_S100000_d1 h, Ideal.ofBits_zero_f32, zero_add]
  exact Finset.sum_congr rfl fun k _ => congrArg e (Cert.Lib.Keepdims.lift_lastAxis h p k)

/-- The softmax tail: exponentials of the row-maximum-shifted entries over their row sum. -/
theorem softmax_tail_eq (x : FVec Ideal S100000x40 .f32) :
    Host.divf (Host.exp (subf x (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf x (constant S_ .f32 0xFF800000#32) reducesTo_S100000x40_S100000_d1 h_S_))))))
      (broadcastInDim S100000x40 ![0, 1] bcast_S100000x1_S100000x40_0_1 (broadcastInDim S100000x1 ![0] bcast_S100000_S100000x1_0 (Host.reduceAdd (Host.exp (subf x (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf x (constant S_ .f32 0xFF800000#32) reducesTo_S100000x40_S100000_d1 h_S_)))))) (constant S_ .f32 0x00000000#32) reducesTo_S100000x40_S100000_d1 h_S_)))
      = Cert.Gcn.softmax x := by
  funext i
  obtain ⟨p, q, rfl⟩ : ∃ (p : Fin 100000) (q : Fin 40), i = ix2 p q := ⟨i 0, i 1, eq_ix2 i⟩
  have hmp : ∀ r : Fin 100000, (maximumf (broadcastInDim S100000 ![] bcast_S_S100000 (constant S_ .f32 0xFF800000#32)) (Host.reduce FloatOps.maximumf x (constant S_ .f32 0xFF800000#32) reducesTo_S100000x40_S100000_d1 h_S_)) (ix1 r) = Cert.Gcn.rowMax x r := fun r => rowMax_eq x r
  generalize (maximumf (broadcastInDim S100000 ![] bcast_S_S100000 (constant S_ .f32 0xFF800000#32)) (Host.reduce FloatOps.maximumf x (constant S_ .f32 0xFF800000#32) reducesTo_S100000x40_S100000_d1 h_S_)) = m at hmp ⊢
  rw [hostDivf_apply, rowSumBcast_apply, expShift_apply, hmp, Cert.Gcn.softmax_apply]
  refine congrArg (Ideal.div _) (Finset.sum_congr rfl fun k _ => ?_)
  rw [expShift_apply, hmp]

end Cert.ReferenceIdeal.RefValue

end
-- ==== Proof.RefLayers.lean ====
/-
  The reference program's result as four graph-convolution layers composed.

  Each stage of the program is one host operation applied to earlier stages. Unfolding a layer's stages and reading
  its matrix product as the dense transform, its sum of three terms as the layer's combination, and its tail (the join
  with zero, or the shifted exponentials over their row sum) as the rectifier or the softmax, gives each layer as the
  layer function of the previous layer's output; the graph part (gather at the sources, scale by the edge norm,
  scatter-add at the destinations; the self-loop weights) stays as a function of the edge list, the same in every layer.
-/
import proofs.«107449_j45028437131723_1_alg».proof.Proof.RefRead
import proofs.«107449_j45028437131723_1_alg».proof.Proof.RefOps

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- The graph aggregation of the hidden layers as a function of the transformed features: gather the rows at the
    sources, scale by the edge norm, scatter-add at the destinations. -/
def aggr128 (ei : (⟨S2x1600000, .i32⟩ : BufTy).Contents (Elt Ideal)) (h : FVec Ideal S100000x128 .f32) : FVec Ideal S100000x128 .f32 :=
  Host.scatterAdd scatter_S100000x128_S1600000x1_S1600000x128_1_0_0_1 (val_main_v44 (F := Ideal)) (val_main_v45 (F := Ideal) ei)
    (mulf (Host.gather gather_S100000x128_S1600000x1_S1600000x128_1_0_n_n_0_1_1128 h (val_main_v40 (F := Ideal) ei)) (val_main_v42 (F := Ideal) ei))

/-- The same aggregation at the output layer's width. -/
def aggr40 (ei : (⟨S2x1600000, .i32⟩ : BufTy).Contents (Elt Ideal)) (h : FVec Ideal S100000x40 .f32) : FVec Ideal S100000x40 .f32 :=
  Host.scatterAdd scatter_S100000x40_S1600000x1_S1600000x40_1_0_0_1 (val_main_v104 (F := Ideal)) (val_main_v105 (F := Ideal) ei)
    (mulf (Host.gather gather_S100000x40_S1600000x1_S1600000x40_1_0_n_n_0_1_140 h (val_main_v100 (F := Ideal) ei)) (val_main_v102 (F := Ideal) ei))

/-- The self-loop weight of every node, as a column. -/
def selfNormCol (ei : (⟨S2x1600000, .i32⟩ : BufTy).Contents (Elt Ideal)) : FVec Ideal S100000x1 .f32 := val_main_v33 (F := Ideal) ei

/-- A bias vector of length 128 set as a row. -/
def biasRow128 (b : FVec Ideal S128 .f32) : FVec Ideal S1x128 .f32 := val_main_v50 (F := Ideal) b

/-- A bias vector of length 40 set as a row. -/
def biasRow40 (b : FVec Ideal S40 .f32) : FVec Ideal S1x40 .f32 := val_main_v110 (F := Ideal) b

/-- The first hidden layer. -/
theorem layer1_eq (x0 : (⟨S100000x500, .f32⟩ : BufTy).Contents (Elt Ideal)) (x1 : (⟨S2x1600000, .i32⟩ : BufTy).Contents (Elt Ideal)) (x2 : (⟨S500x128, .f32⟩ : BufTy).Contents (Elt Ideal)) (x3 : (⟨S128, .f32⟩ : BufTy).Contents (Elt Ideal)) :
    val_main_v53 (F := Ideal) x0 x1 x2 x3
      = Cert.Gcn.hidden (aggr128 x1) (selfNormCol x1) x0 x2 (biasRow128 x3) := by
  unfold val_main_v53 val_main_v52 val_main_v49 val_main_v48 val_main_v47 val_main_v51 val_main_call0_v0 val_main_call0_cst
    val_main_v46 val_main_v43 val_main_v41
  rw [relu_combine128_eq]
  unfold val_main_v34
  rw [dot500_eq_dense]
  rfl

/-- The second hidden layer, from the first's output. -/
theorem layer2_eq (x0 : (⟨S100000x500, .f32⟩ : BufTy).Contents (Elt Ideal)) (x1 : (⟨S2x1600000, .i32⟩ : BufTy).Contents (Elt Ideal)) (x2 : (⟨S500x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v73 (F := Ideal) x0 x1 x2 x3 x4 x5
      = Cert.Gcn.hidden (aggr128 x1) (selfNormCol x1) (val_main_v53 (F := Ideal) x0 x1 x2 x3) x4 (biasRow128 x5) := by
  unfold val_main_v73 val_main_v72 val_main_v69 val_main_v68 val_main_v67 val_main_v71 val_main_call1_v0 val_main_call1_cst
    val_main_v66 val_main_v63 val_main_v61
  rw [relu_combine128_eq]
  unfold val_main_v54
  rw [dot128_eq_dense]
  rfl

/-- The third hidden layer, from the second's output. -/
theorem layer3_eq (x0 : (⟨S100000x500, .f32⟩ : BufTy).Contents (Elt Ideal)) (x1 : (⟨S2x1600000, .i32⟩ : BufTy).Contents (Elt Ideal)) (x2 : (⟨S500x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v93 (F := Ideal) x0 x1 x2 x3 x4 x5 x6 x7
      = Cert.Gcn.hidden (aggr128 x1) (selfNormCol x1) (val_main_v73 (F := Ideal) x0 x1 x2 x3 x4 x5) x6 (biasRow128 x7) := by
  unfold val_main_v93 val_main_v92 val_main_v89 val_main_v88 val_main_v87 val_main_v91 val_main_call2_v0 val_main_call2_cst
    val_main_v86 val_main_v83 val_main_v81
  rw [relu_combine128_eq]
  unfold val_main_v74
  rw [dot128_eq_dense]
  rfl

/-- The output layer's combination, from the third hidden layer's output. -/
theorem preact_eq (x0 : (⟨S100000x500, .f32⟩ : BufTy).Contents (Elt Ideal)) (x1 : (⟨S2x1600000, .i32⟩ : BufTy).Contents (Elt Ideal)) (x2 : (⟨S500x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v112 (F := Ideal) x0 x1 x2 x3 x4 x5 x6 x7 x8 x9
      = Cert.Gcn.combine (aggr40 x1 (Cert.Gcn.dense (val_main_v93 (F := Ideal) x0 x1 x2 x3 x4 x5 x6 x7) x8))
          (Cert.Gcn.dense (val_main_v93 (F := Ideal) x0 x1 x2 x3 x4 x5 x6 x7) x8) (selfNormCol x1) (biasRow40 x9) := by
  unfold val_main_v112 val_main_v109 val_main_v108 val_main_v107 val_main_v111 val_main_v106 val_main_v103 val_main_v101
  rw [combine40_eq]
  unfold val_main_v94
  rw [dot40_eq_dense]
  rfl

/-- The output layer, from the third hidden layer's output. -/
theorem outLayer_eq (x0 : (⟨S100000x500, .f32⟩ : BufTy).Contents (Elt Ideal)) (x1 : (⟨S2x1600000, .i32⟩ : BufTy).Contents (Elt Ideal)) (x2 : (⟨S500x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v123 (F := Ideal) x0 x1 x2 x3 x4 x5 x6 x7 x8 x9
      = Cert.Gcn.output (aggr40 x1) (selfNormCol x1) (val_main_v93 (F := Ideal) x0 x1 x2 x3 x4 x5 x6 x7) x8 (biasRow40 x9) := by
  unfold val_main_v123 val_main_v122 val_main_v121 val_main_v120 val_main_v119 val_main_v118 val_main_v117 val_main_v116
    val_main_v115 val_main_v114 val_main_v113 val_main_cst_19 val_main_cst_20 val_main_cst_21
  rw [softmax_tail_eq, preact_eq]
  rfl

/-- The reference's result as the four layers composed. -/
theorem ref_value (x0 : (⟨S100000x500, .f32⟩ : BufTy).Contents (Elt Ideal)) (x1 : (⟨S2x1600000, .i32⟩ : BufTy).Contents (Elt Ideal)) (x2 : (⟨S500x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v123 (F := Ideal) x0 x1 x2 x3 x4 x5 x6 x7 x8 x9
      = Cert.Gcn.output (aggr40 x1) (selfNormCol x1)
          (Cert.Gcn.hidden (aggr128 x1) (selfNormCol x1)
            (Cert.Gcn.hidden (aggr128 x1) (selfNormCol x1)
              (Cert.Gcn.hidden (aggr128 x1) (selfNormCol x1) x0 x2 (biasRow128 x3)) x4 (biasRow128 x5)) x6 (biasRow128 x7))
          x8 (biasRow40 x9) := by
  rw [outLayer_eq, layer3_eq, layer2_eq, layer1_eq]

end Cert.ReferenceIdeal.RefValue

end
-- ==== Proof.Bridge.lean ====
/-
  The two programs spell the graph part with their own copies of the same host operations; as
  functions they coincide (each pair is the same operations on the same operands). Hence the
  reference's result, read layer by layer, is the kernel's network of the arguments whenever the
  two launch memories agree on the arguments.
-/
import proofs.«107449_j45028437131723_1_alg».proof.Proof.Network
import proofs.«107449_j45028437131723_1_alg».proof.Proof.RefLayers

set_option maxRecDepth 16384

noncomputable section

namespace Cert.Proof.Bridge

open Idealize.ShloMosaic Idealize.SL.Sem

/-! ## The graph part, spelt by either program, is the same functions -/

theorem aggr128_eq (ei : (⟨Cert.KernelIdeal.S2x1600000, .i32⟩ : BufTy).Contents (Elt Ideal)) :
    Cert.ReferenceIdeal.RefValue.aggr128 ei
      = Cert.KernelIdeal.Graph.aggr128 (F := Ideal) (Cert.KernelIdeal.Graph.srcWords ei) (Cert.KernelIdeal.Graph.dstWords ei)
          (Cert.KernelIdeal.Graph.edgeNorm (Cert.KernelIdeal.Graph.srcWords ei) (Cert.KernelIdeal.Graph.dstWords ei)) := by
  funext h; rfl

theorem aggr40_eq (ei : (⟨Cert.KernelIdeal.S2x1600000, .i32⟩ : BufTy).Contents (Elt Ideal)) :
    Cert.ReferenceIdeal.RefValue.aggr40 ei
      = Cert.KernelIdeal.Graph.aggr40 (F := Ideal) (Cert.KernelIdeal.Graph.srcWords ei) (Cert.KernelIdeal.Graph.dstWords ei)
          (Cert.KernelIdeal.Graph.edgeNorm (Cert.KernelIdeal.Graph.srcWords ei) (Cert.KernelIdeal.Graph.dstWords ei)) := by
  funext h; rfl

theorem selfNormCol_eq (ei : (⟨Cert.KernelIdeal.S2x1600000, .i32⟩ : BufTy).Contents (Elt Ideal)) :
    Cert.ReferenceIdeal.RefValue.selfNormCol ei = Cert.KernelIdeal.Graph.nodeCol (F := Ideal) (Cert.KernelIdeal.Graph.selfNorm (Cert.KernelIdeal.Graph.dstWords ei)) := rfl

theorem biasRow128_eq (b : (⟨Cert.KernelIdeal.S128, .f32⟩ : BufTy).Contents (Elt Ideal)) :
    Cert.ReferenceIdeal.RefValue.biasRow128 b = Cert.KernelIdeal.Graph.biasRow128 (F := Ideal) b := rfl

theorem biasRow40_eq (b : (⟨Cert.KernelIdeal.S40, .f32⟩ : BufTy).Contents (Elt Ideal)) :
    Cert.ReferenceIdeal.RefValue.biasRow40 b = Cert.KernelIdeal.Graph.biasRow40 (F := Ideal) b := rfl

/-! ## The reference's result is the network of the kernel's arguments -/

theorem reference_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v123 (F := Ideal) m' c = Cert.KernelIdeal.Spine.network m c := by
  obtain ⟨h0, h1, h2, h3, h4, h5, h6, h7, h8, h9⟩ := h
  rw [Cert.ReferenceIdeal.Read.val_main_v123_eq, Cert.ReferenceIdeal.RefValue.ref_value, h0, h1, h2, h3, h4, h5, h6, h7, h8, h9,
    aggr128_eq, aggr40_eq, selfNormCol_eq, biasRow128_eq, biasRow40_eq]
  rfl

end Cert.Proof.Bridge

end
-- ==== Proof.lean ====
/-
  A four-layer graph-convolution network — dense transform, aggregation of the transformed rows over
  the edges with symmetric degree normalisation, self-loop term, bias, rectifier (three times) and a
  row-wise softmax at the end — computed by eight pipelined regions among host operations, against
  the same network written with host operations only.

  Read on the extended reals the two programs are ONE function of their arguments. The graph part
  (edge words, degrees, edge and self-loop weights, the gather–scale–scatter aggregation) is applied
  by both programs through the same host operations and is never opened. The kernel's matmul regions
  round both operands to bf16 first, which changes nothing on extended reals, and accumulate from
  zero over the whole shared axis, so each block row of a region's result is the dense transform's
  row: no sum is regrouped. The combine regions add the three summands in the reference's order and
  apply the same nonlinearity; for the softmax both sides subtract the row's maximum (the reference
  takes one more maximum with −∞, which changes nothing), exponentiate, and divide by the row's sum.
  So no law beyond commutativity-free rewriting is used, and finiteness of the inputs is not needed.

  The modules: `LayerSpec` states a layer entry by entry; `DenseRegions` / `CombineRegions` show each
  region's array after its write-backs is that function of the arrays it found; `KernelRun`,
  `HostReads`, `Carry`, `Compose` walk the kernel's thirteen segments to the result buffer;
  `Network` names the composed function; `RefOps`, `RefLayers` read the reference's run the same way;
  `Bridge` identifies the two spellings of the graph part.
-/
import proofs.«107449_j45028437131723_1_alg».proof.Defs
import proofs.«107449_j45028437131723_1_alg».proof.Proof.Gen.Kernel
import proofs.«107449_j45028437131723_1_alg».proof.Proof.Gen.Kernel.Skeleton
import proofs.«107449_j45028437131723_1_alg».proof.Proof.Gen.Kernel.Launch
import proofs.«107449_j45028437131723_1_alg».proof.Proof.Gen.Kernel.Points
import proofs.«107449_j45028437131723_1_alg».proof.Proof.Gen.Kernel.Frame
import proofs.«107449_j45028437131723_1_alg».proof.Proof.Gen.KernelIdeal
import proofs.«107449_j45028437131723_1_alg».proof.Proof.Gen.KernelIdeal.Skeleton
import proofs.«107449_j45028437131723_1_alg».proof.Proof.Gen.KernelIdeal.Launch
import proofs.«107449_j45028437131723_1_alg».proof.Proof.Gen.KernelIdeal.Points
import proofs.«107449_j45028437131723_1_alg».proof.Proof.Gen.KernelIdeal.Frame
import proofs.«107449_j45028437131723_1_alg».proof.Proof.Gen.ReferenceIdeal
import proofs.«107449_j45028437131723_1_alg».proof.Proof.Gen.Pre_finite_inputs
import proofs.«107449_j45028437131723_1_alg».proof.Proof.KernelRun
import proofs.«107449_j45028437131723_1_alg».proof.Proof.Compose
import proofs.«107449_j45028437131723_1_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the arguments in their result buffer. -/
theorem algebraic : Cert.algebraic_KernelIdeal_ReferenceIdeal := by
  intro m ρ m' ρ' _ hagree
  refine ⟨fun c => Cert.KernelIdeal.Spine.network m c, ?_, ?_⟩
  · exact (θ_run Cert.KernelIdeal.defs _ _).mono
      (fun _ h c => ⟨(h c).1.trans (Cert.KernelIdeal.Spine.W13_v99 m ρ c), (h c).2⟩)
      (Cert.KernelIdeal.Spine.run_result (F := Ideal) m ρ)
  · exact (θ_run Cert.ReferenceIdeal.defs _ _).mono
      (fun _ h c => ⟨(h c).1.trans (Cert.Proof.Bridge.reference_result m m' c (hagree c)), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
